-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S16384x8192 : Shape := ⟨2, ![16384, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  main_v53

def fn_part2 {F : FTy → Type} [FloatOps F] (main_arg7 : FVec F S16384x8192 .f32) (main_arg8 : FVec F S8192 .f32) (main_arg9 : FVec F S16384x8192 .f32) (main_arg10 : FVec F S8192 .f32) (main_v33 : IVec S_ 1) : IVec S_ 1 :=
  let main_v34 : FVec F S16384x8192 .f32 := Host.absf main_arg7
  let main_cst_12 : FVec F S_ .f32 := constant S_ .f32 0x7F800000#32
  let main_v35 : FVec F S16384x8192 .f32 := broadcastInDim S16384x8192 ![] bcast_S_S16384x8192 main_cst_12
  let main_v36 : IVec S16384x8192 1 := cmpf .olt main_v34 main_v35
  let main_c_13 : IVec S_ 1 := constantI S_ 1 1#1
  let main_v37 : IVec S_ 1 := (fun x v => Host.reduce IntOp.andi x v reducesTo_S16384x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S16384x8192 .f32 := Host.absf main_arg9
  let main_cst_16 : FVec F S_ .f32 := constant S_ .f32 0x7F800000#32
  let main_v45 : FVec F S16384x8192 .f32 := broadcastInDim S16384x8192 ![] bcast_S_S16384x8192 main_cst_16
  let main_v46 : IVec S16384x8192 1 := cmpf .olt main_v44 main_v45
  let main_c_17 : IVec S_ 1 := constantI S_ 1 1#1
  let main_v47 : IVec S_ 1 := (fun x v => Host.reduce IntOp.andi x v reducesTo_S16384x8192_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_v48 main_v49 main_v50

def fn_part1 {F : FTy → Type} [FloatOps F] (main_arg4 : FVec F S8192 .f32) (main_arg5 : FVec F S16384x8192 .f32) (main_arg6 : FVec F S8192 .f32) (main_arg7 : FVec F S16384x8192 .f32) (main_arg8 : FVec F S8192 .f32) (main_arg9 : FVec F S16384x8192 .f32) (main_arg10 : FVec F S8192 .f32) (main_v13 : IVec S_ 1) (main_v16 : IVec S16384x8192 1) : IVec S_ 1 :=
  let main_c_5 : IVec S_ 1 := constantI S_ 1 1#1
  let main_v17 : IVec S_ 1 := (fun x v => Host.reduce IntOp.andi x v reducesTo_S16384x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S16384x8192 .f32 := Host.absf main_arg5
  let main_cst_8 : FVec F S_ .f32 := constant S_ .f32 0x7F800000#32
  let main_v25 : FVec F S16384x8192 .f32 := broadcastInDim S16384x8192 ![] bcast_S_S16384x8192 main_cst_8
  let main_v26 : IVec S16384x8192 1 := cmpf .olt main_v24 main_v25
  let main_c_9 : IVec S_ 1 := constantI S_ 1 1#1
  let main_v27 : IVec S_ 1 := (fun x v => Host.reduce IntOp.andi x v reducesTo_S16384x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x8192 .f32) (main_arg1 : FVec F S1x8192 .f32) (main_arg2 : FVec F S1x8192 .f32) (main_arg3 : FVec F S16384x8192 .f32) (main_arg4 : FVec F S8192 .f32) (main_arg5 : FVec F S16384x8192 .f32) (main_arg6 : FVec F S8192 .f32) (main_arg7 : FVec F S16384x8192 .f32) (main_arg8 : FVec F S8192 .f32) (main_arg9 : FVec F S16384x8192 .f32) (main_arg10 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S16384x8192 .f32 := Host.absf main_arg3
  let main_cst_4 : FVec F S_ .f32 := constant S_ .f32 0x7F800000#32
  let main_v15 : FVec F S16384x8192 .f32 := broadcastInDim S16384x8192 ![] bcast_S_S16384x8192 main_cst_4
  let main_v16 : IVec S16384x8192 1 := cmpf .olt main_v14 main_v15
  fn_part1 (F := F) main_arg4 main_arg5 main_arg6 main_arg7 main_arg8 main_arg9 main_arg10 main_v13 main_v16
-- ==== Kernel.lean ====
abbrev S1x8192 : Shape := ⟨2, ![1, 8192]⟩
abbrev S16384x8192 : Shape := ⟨2, ![16384, 8192]⟩
abbrev S8192 : Shape := ⟨1, ![8192]⟩
abbrev S1x16384 : Shape := ⟨2, ![1, 16384]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 13
  | .vmem => 26
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S16384x8192, .f32⟩
  | .hbm, ⟨4, _⟩ => ⟨S8192, .f32⟩
  | .hbm, ⟨5, _⟩ => ⟨S16384x8192, .f32⟩
  | .hbm, ⟨6, _⟩ => ⟨S8192, .f32⟩
  | .hbm, ⟨7, _⟩ => ⟨S16384x8192, .f32⟩
  | .hbm, ⟨8, _⟩ => ⟨S8192, .f32⟩
  | .hbm, ⟨9, _⟩ => ⟨S16384x8192, .f32⟩
  | .hbm, ⟨10, _⟩ => ⟨S8192, .f32⟩
  | .hbm, ⟨11, _⟩ => ⟨S1x16384, .f32⟩
  | .hbm, ⟨12, _⟩ => ⟨S1x8192, .f32⟩
  | .local _ .vmem, ⟨0, _⟩ => ⟨S1x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | .local _ .vmem, ⟨16, _⟩ => ⟨S1024, .f32⟩
  | .local _ .vmem, ⟨17, _⟩ => ⟨S1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_29 : BitVec 32 := 0#32
  let v35 : BitVec 1 := Scalar.cmpi .ne v34 c0_i32_29
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S1x8192_S1x8192_S1x16384_d1 : Shape.Concatenates [S1x8192, S1x8192] S1x16384 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x16384.size a
  hwx0_0 : ∀ i : grid0.Coords, EltTy.bits .f32 = 32 ∨ (Rect.block (s := S1x16384) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x8192.size a
  hwx0_1 : ∀ i : grid0.Coords, EltTy.bits .f32 = 32 ∨ (Rect.block (s := S16384x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x8192.size a
  hwx0_3 : ∀ i : grid0.Coords, EltTy.bits .f32 = 32 ∨ (Rect.block (s := S16384x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x8192.size a
  hwx0_5 : ∀ i : grid0.Coords, EltTy.bits .f32 = 32 ∨ (Rect.block (s := S16384x8192) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S8192.size a
  hwx0_6 : ∀ i : grid0.Coords, EltTy.bits .f32 = 32 ∨ (Rect.block (s := S8192) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x8192.size a
  hwx0_7 : ∀ i : grid0.Coords, EltTy.bits .f32 = 32 ∨ (Rect.block (s := S16384x8192) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S8192.size a
  hwx0_8 : ∀ i : grid0.Coords, EltTy.bits .f32 = 32 ∨ (Rect.block (s := S8192) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x8192.size a
  hwx0_9 : ∀ i : grid0.Coords, EltTy.bits .f32 = 32 ∨ (Rect.block (s := S1x8192) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x8192.size a
  hwx0_10 : ∀ i : grid0.Coords, EltTy.bits .f32 = 32 ∨ (Rect.block (s := S1x8192) S1x1024.size (cc0_transform_10 i) (hinb0_10 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1024x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S1x8192 : Shape := ⟨2, ![1, 8192]⟩
abbrev S16384x8192 : Shape := ⟨2, ![16384, 8192]⟩
abbrev S8192 : Shape := ⟨1, ![8192]⟩
abbrev S1x16384 : Shape := ⟨2, ![1, 16384]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S16384x8192, .f32⟩
  | .hbm, ⟨4, _⟩ => ⟨S8192, .f32⟩
  | .hbm, ⟨5, _⟩ => ⟨S16384x8192, .f32⟩
  | .hbm, ⟨6, _⟩ => ⟨S8192, .f32⟩
  | .hbm, ⟨7, _⟩ => ⟨S16384x8192, .f32⟩
  | .hbm, ⟨8, _⟩ => ⟨S8192, .f32⟩
  | .hbm, ⟨9, _⟩ => ⟨S16384x8192, .f32⟩
  | .hbm, ⟨10, _⟩ => ⟨S8192, .f32⟩
  | .hbm, ⟨11, _⟩ => ⟨S1x16384, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S1x8192, .f32⟩
  | .hbm, ⟨31, _⟩ => ⟨S1x8192, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S1x8192, .f32⟩
  | .hbm, ⟨40, _⟩ => ⟨S1x8192, .f32⟩
  | .hbm, ⟨41, _⟩ => ⟨S1x8192, .f32⟩
  | .hbm, ⟨42, _⟩ => ⟨S1x8192, .f32⟩
  | .hbm, ⟨43, _⟩ => ⟨S_, .f32⟩
  | .hbm, ⟨44, _⟩ => ⟨S1x8192, .f32⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S1x8192, .f32⟩
  | .hbm, ⟨50, _⟩ => ⟨S1x8192, .f32⟩
  | .hbm, ⟨51, _⟩ => ⟨S1x8192, .f32⟩
  | .hbm, ⟨52, _⟩ => ⟨S1x8192, .f32⟩
  | .hbm, ⟨53, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S1x8192_S1x8192_S1x16384_d1 : Shape.Concatenates [S1x8192, S1x8192] S1x16384 1
  bcast_S8192_S1x8192_1 : S8192.BroadcastsInDim S1x8192 (![1] : Fin 1 → Fin S1x8192.rank)
  bcast_S_S1x8192 : S_.BroadcastsInDim S1x8192 (![] : Fin 0 → Fin S1x8192.rank)
  dot_S1x16384_S16384x8192_S1x8192_1_0_0_1_n_n_wf : DotDims.WF S1x16384 S16384x8192 S1x8192 [1] [0] [0] [1] [] []

variable [Facts₀]

def dot_S1x16384_S16384x8192_S1x8192_1_0_0_1_n_n : DotDims S1x16384 S16384x8192 S1x8192 where
  lhsContracting := [1]
  rhsContracting := [0]
  lhsNonContracting := [0]
  rhsNonContracting := [1]
  lhsBatch := []
  rhsBatch := []
  wf := dot_S1x16384_S16384x8192_S1x8192_1_0_0_1_n_n_wf

class Facts : Prop extends Facts₀ where

variable [Facts]
-- ==== Proof.KernelPieces.lean ====
/-
  What the body leaves in each accumulator row, and in the result block, in each of its three control cases, as the
  body's own arithmetic applied to the blocks it loaded.

  The first point of a run (case A) fills the four accumulators with zeros and then adds the point's block product to
  each, so each is left holding "zeros, updated". A middle point (case B) and the last point (case C) add the point's
  block product to what the point before left. The last point also stores the result block: the combination of the four
  accumulators as just updated, the four bias blocks and the previous cell block. Every store covers its whole row and
  every load reads a whole buffer, so what a buffer holds afterwards is the stored value itself.
-/
import proofs.«103221_j54288386622134_1_alg».proof.Proof.Gen.KernelIdeal.Frame
import Idealize.ShloMosaic.Lib.Pipeline.Value
import Idealize.ShloMosaic.Lib.Tactic

noncomputable section

namespace Cert.KernelPieces

open Cert.KernelIdeal Cert.KernelIdeal.Gen Idealize.ShloMosaic Idealize.ShloMosaic.TcCoe Idealize.SL.Sem Idealize.ShloMosaic.Tactic

variable {F : FTy → Type} [FloatOps F]

/-- Every load and store of the body starts at the origin of its buffer. -/
theorem origin2 : (![0, 0] : Fin 2 → Nat) = fun _ => 0 := funext fun a => by fin_cases a <;> rfl
theorem origin1 : (![0] : Fin 1 → Nat) = fun _ => 0 := funext fun a => by fin_cases a; rfl

/-- A middle point leaves in the candidate gate's accumulator what the point before left, updated with this point's blocks. -/
theorem middle_candidate (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay8 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  rw [View.canon_unit_zero origin2]
  simp only [View.readAt_eq_ld, harg2.read_unread, harg13.read_unread, harg3.read_unread,
    View.ld_unit_zero (S := S1x1024) origin2, View.ld_unit_zero (S := S1024x1024) origin2]

/-- So does the last point. -/
theorem last_candidate (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay8 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg2.read_unread, harg13.read_unread, harg3.read_unread,
    View.ld_unit_zero (S := S1x1024) origin2, View.ld_unit_zero (S := S1024x1024) origin2]

/-- The first point of a run leaves in the candidate gate's accumulator the zero fill, updated with this point's blocks. -/
theorem first_candidate (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay8 x0 k0_pay3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) origin2, View.readCov_unit_zero (S := S1x1024) _ origin2]
  simp only [View.readAt_eq_ld, harg2.read_unread, harg3.read_unread,
    View.ld_unit_zero (S := S1x1024) origin2, View.ld_unit_zero (S := S1024x1024) origin2]

/-- A middle point leaves in the forget gate's accumulator what the point before left, updated with this point's blocks. -/
theorem middle_forget (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay9 x0 xs1 x3 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  rw [View.canon_unit_zero origin2]
  simp only [View.readAt_eq_ld, harg2.read_unread, harg14.read_unread, harg5.read_unread,
    View.ld_unit_zero (S := S1x1024) origin2, View.ld_unit_zero (S := S1024x1024) origin2]

/-- So does the last point. -/
theorem last_forget (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay9 x0 xs1 x3 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg2.read_unread, harg14.read_unread, harg5.read_unread,
    View.ld_unit_zero (S := S1x1024) origin2, View.ld_unit_zero (S := S1024x1024) origin2]

/-- The first point of a run leaves in the forget gate's accumulator the zero fill, updated with this point's blocks. -/
theorem first_forget (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay9 x0 k0_pay4 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) origin2, View.readCov_unit_zero (S := S1x1024) _ origin2]
  simp only [View.readAt_eq_ld, harg2.read_unread, harg5.read_unread,
    View.ld_unit_zero (S := S1x1024) origin2, View.ld_unit_zero (S := S1024x1024) origin2]

/-- A middle point leaves in the input gate's accumulator what the point before left, updated with this point's blocks. -/
theorem middle_input (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay10 x0 xs2 x5 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  rw [View.canon_unit_zero origin2]
  simp only [View.readAt_eq_ld, harg2.read_unread, harg15.read_unread, harg7.read_unread,
    View.ld_unit_zero (S := S1x1024) origin2, View.ld_unit_zero (S := S1024x1024) origin2]

/-- So does the last point. -/
theorem last_input (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay10 x0 xs2 x5 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg2.read_unread, harg15.read_unread, harg7.read_unread,
    View.ld_unit_zero (S := S1x1024) origin2, View.ld_unit_zero (S := S1024x1024) origin2]

/-- The first point of a run leaves in the input gate's accumulator the zero fill, updated with this point's blocks. -/
theorem first_input (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay10 x0 k0_pay5 x5 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) origin2, View.readCov_unit_zero (S := S1x1024) _ origin2]
  simp only [View.readAt_eq_ld, harg2.read_unread, harg7.read_unread,
    View.ld_unit_zero (S := S1x1024) origin2, View.ld_unit_zero (S := S1024x1024) origin2]

/-- A middle point leaves in the output gate's accumulator what the point before left, updated with this point's blocks. -/
theorem middle_output (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay1 (k0_pay7 x0) xs3 x7 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero origin2]
  simp only [View.readAt_eq_ld, harg2.read_unread, harg16.read_unread, harg9.read_unread,
    View.ld_unit_zero (S := S1x1024) origin2, View.ld_unit_zero (S := S1024x1024) origin2]

/-- So does the last point. -/
theorem last_output (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay1 (k0_pay7 x0) xs3 x7 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg2.read_unread, harg16.read_unread, harg9.read_unread,
    View.ld_unit_zero (S := S1x1024) origin2, View.ld_unit_zero (S := S1024x1024) origin2]

/-- The first point of a run leaves in the output gate's accumulator the zero fill, updated with this point's blocks. -/
theorem first_output (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay1 (k0_pay7 x0) k0_pay6 x7 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) origin2, View.readCov_unit_zero (S := S1x1024) _ origin2]
  simp only [View.readAt_eq_ld, harg2.read_unread, harg9.read_unread,
    View.ld_unit_zero (S := S1x1024) origin2, View.ld_unit_zero (S := S1024x1024) origin2]

/-- The last point leaves in the result's block the combination of the four accumulators as that point updated them,
    the four bias blocks and the previous cell block. -/
theorem last_result (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S1x1024 .f32) (x1 : Vec F S1024x1024 .f32) (x2 : Vec F S1024 .f32) (x3 : Vec F S1024x1024 .f32) (x4 : Vec F S1024 .f32) (x5 : Vec F S1024x1024 .f32) (x6 : Vec F S1024 .f32) (x7 : Vec F S1024x1024 .f32) (x8 : Vec F S1024 .f32) (x9 : Vec F S1x1024 .f32) (xs0 : Vec F S1x1024 .f32) (xs1 : Vec F S1x1024 .f32) (xs2 : Vec F S1x1024 .f32) (xs3 : Vec F S1x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = k0_pay2 (k0_pay8 x0 xs0 x1) x2 (k0_pay9 x0 xs1 x3) x4 (k0_pay10 x0 xs2 x5) x6 (k0_pay1 (k0_pay7 x0) xs3 x7) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero origin2]
  simp only [View.readAt_eq_ld, View.readCov_unit_zero (S := S1x1024) _ origin2, harg2.read_unread, harg3.read_unread, harg4.read_unread, harg5.read_unread, harg6.read_unread,
    harg7.read_unread, harg8.read_unread, harg9.read_unread, harg10.read_unread, harg11.read_unread, harg13.read_unread, harg14.read_unread, harg15.read_unread, harg16.read_unread,
    View.ld_unit_zero (S := S1x1024) origin2, View.ld_unit_zero (S := S1024x1024) origin2, View.ld_unit_zero (S := S1024) origin1]

end Cert.KernelPieces

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LstmSpec.lean ====
/-
  What one step of the recurrent cell computes, as one function of its inputs, index by index, over the extended reals.

  The inputs are the joined row `cc` (the previous hidden row followed by the input row, 16384 entries), the previous
  cell row `c` (8192 entries), and for each of the four gates a weight matrix `W` of 16384 rows and 8192 columns
  and a bias `b` of 8192 entries. At output column `q` each gate's pre-activation is the inner product of the joined
  row with column `q` of the gate's matrix, plus the gate's bias at `q`:

      pre W b q = (∑ k < 16384, cc k · W k q) + b q .

  The candidate gate passes its pre-activation through tanh, the forget, input and output gates pass theirs through the
  logistic function σ x = 1 / (1 + e⁻ˣ), and the new hidden entry is

      σ(pre_o) · tanh ( c q · σ(pre_f) + tanh(pre_c) · σ(pre_i) ) .

  Nothing here asks the entries to be finite: the operations are the extended reals' own, with their conventions at ±∞.
-/
import Idealize.ShloMosaic.PureOps.Ideal
import Idealize.ShloMosaic.Lib.ValueIdx

noncomputable section

namespace Cert.LstmSpec

open Idealize.ShloMosaic Idealize.ShloMosaic.ValueIdx

/-- The joined row: one row of 16384 entries. -/
abbrev JoinedRow : Shape := ⟨2, ![1, 16384]⟩
/-- A row of 8192 entries: the previous cell row, and the result. -/
abbrev HiddenRow : Shape := ⟨2, ![1, 8192]⟩
/-- A gate's weight matrix: 16384 rows (one per joined entry), 8192 columns (one per output entry). -/
abbrev Weights : Shape := ⟨2, ![16384, 8192]⟩
/-- A gate's bias: 8192 entries. -/
abbrev Bias : Shape := ⟨1, ![8192]⟩

/-- A gate's pre-activation at output index `i` (row `i 0`, column `i 1`): the inner product of the joined row with the
    column of the gate's matrix, plus the bias at the column. -/
def pre (cc : FVec Ideal JoinedRow .f32) (W : FVec Ideal Weights .f32) (b : FVec Ideal Bias .f32)
    (i : HiddenRow.Idx) : EReal :=
  (∑ k : Fin 16384, cc (ix2 (i 0) k) * W (ix2 k (i 1))) + b (ix1 (i 1))

/-- The cell's combination of the four pre-activations and the previous cell entry `cq`:
    σ(po) · tanh (cq · σ(pf) + tanh(pc) · σ(pi)). -/
def combine (pc pf pi po cq : EReal) : EReal :=
  Ideal.logistic po * Ideal.tanh (cq * Ideal.logistic pf + Ideal.tanh pc * Ideal.logistic pi)

/-- The new hidden row as one function of the joined row, the previous cell row and the four gates' weights and biases. -/
def hidden (cc : FVec Ideal JoinedRow .f32) (c : FVec Ideal HiddenRow .f32)
    (Wc : FVec Ideal Weights .f32) (bc : FVec Ideal Bias .f32) (Wf : FVec Ideal Weights .f32) (bf : FVec Ideal Bias .f32)
    (Wi : FVec Ideal Weights .f32) (bi : FVec Ideal Bias .f32) (Wo : FVec Ideal Weights .f32) (bo : FVec Ideal Bias .f32) :
    FVec Ideal HiddenRow .f32 :=
  fun i => combine (pre cc Wc bc i) (pre cc Wf bf i) (pre cc Wi bi i) (pre cc Wo bo i) (c i)

end Cert.LstmSpec

end
-- ==== Proof.KernelPayloads.lean ====
/-
  The kernel body's arithmetic, read at an index, over the extended reals.

  At every grid point the body adds to each of four accumulator rows (one per gate) the product of the point's block of
  the joined row (1 × 1024) with the point's block of the gate's matrix (1024 × 1024). Read at row `p`, column `q` of
  the accumulator that update is

      acc (p, q) + ∑ s < 1024, x (p, s) · w (s, q) ,

  because a matrix product into a zero accumulator is that sum and adding the zero in front changes nothing. At the
  first point of a column block's run the accumulator was just filled with zeros, so there the update leaves the block
  sum alone. At the last point the body adds each gate's bias block (a row of 1024 viewed as 1 × 1024: entry `q` sits
  at `(p, q)`), applies tanh or the logistic function, and combines with the previous cell block exactly as the
  specification's `combine` does.
-/
import proofs.«103221_j54288386622134_1_alg».proof.Proof.Gen.KernelIdeal.Skeleton
import proofs.«103221_j54288386622134_1_alg».proof.Proof.LibPlainMatmul
import proofs.«103221_j54288386622134_1_alg».proof.Proof.LstmSpec
import Idealize.ShloMosaic.Lib.ValueIdx
import Idealize.ShloMosaic.Lib.Pipeline.Value
import Idealize.ShloMosaic.PureOps.Ideal.Laws

noncomputable section

namespace Cert.KernelPayloads

open Cert.KernelIdeal Cert.KernelIdeal.Gen Idealize.ShloMosaic Idealize.ShloMosaic.ValueIdx

/-- The inner product of a block `x` of the joined row with column `y 1` of a block `w` of a gate's matrix. -/
def blockDot (x : FVec Ideal S1x1024 .f32) (w : FVec Ideal S1024x1024 .f32) (y : S1x1024.Idx) : EReal :=
  ∑ s : Fin 1024, x (ix2 (y 0) s) * w (ix2 s (y 1))

/-- The block product into a zero accumulator, at an index, is the block inner product. -/
theorem matmul_block_apply (x : FVec Ideal S1x1024 .f32) (w : FVec Ideal S1024x1024 .f32) (y : S1x1024.Idx) :
    FloatOps.matmul dot_S1x1024_S1024x1024_S1x1024_1_0_0_1_n_n none x w (constant S1x1024 .f32 0x00000000#32) y
      = blockDot x w y := by
  obtain ⟨p, q, rfl⟩ : ∃ (p : Fin 1) (q : Fin 1024), y = ix2 p q := ⟨y 0, y 1, eq_ix2 y⟩
  exact PlainMatmul.matmul_zero_apply dot_S1x1024_S1024x1024_S1x1024_1_0_0_1_n_n_wf none x w p q

/-- The candidate gate's accumulator update, at an index: what was there plus the block inner product. -/
theorem update_c_apply (x acc : FVec Ideal S1x1024 .f32) (w : FVec Ideal S1024x1024 .f32) (y : S1x1024.Idx) :
    k0_pay8 (F := Ideal) x acc w y = acc y + blockDot x w y := by
  unfold k0_pay8 k0_pay7
  simp only [shapeCast_self]
  exact congrArg (acc y + ·) (matmul_block_apply x w y)

/-- The forget gate's accumulator update, at an index. -/
theorem update_f_apply (x acc : FVec Ideal S1x1024 .f32) (w : FVec Ideal S1024x1024 .f32) (y : S1x1024.Idx) :
    k0_pay9 (F := Ideal) x acc w y = acc y + blockDot x w y := by
  unfold k0_pay9 k0_pay7
  simp only [shapeCast_self]
  exact congrArg (acc y + ·) (matmul_block_apply x w y)

/-- The input gate's accumulator update, at an index. -/
theorem update_i_apply (x acc : FVec Ideal S1x1024 .f32) (w : FVec Ideal S1024x1024 .f32) (y : S1x1024.Idx) :
    k0_pay10 (F := Ideal) x acc w y = acc y + blockDot x w y := by
  unfold k0_pay10 k0_pay7
  simp only [shapeCast_self]
  exact congrArg (acc y + ·) (matmul_block_apply x w y)

/-- The output gate's accumulator update, at an index (its joined block arrives already passed through the identity
    reshape). -/
theorem update_o_apply (x acc : FVec Ideal S1x1024 .f32) (w : FVec Ideal S1024x1024 .f32) (y : S1x1024.Idx) :
    k0_pay1 (F := Ideal) (k0_pay7 x) acc w y = acc y + blockDot x w y := by
  unfold k0_pay1 k0_pay7
  simp only [shapeCast_self]
  exact congrArg (acc y + ·) (matmul_block_apply x w y)

/-- The four zero fills are the zero row. -/
theorem zero_fill_c (y : S1x1024.Idx) : k0_pay3 (F := Ideal) y = 0 := by
  unfold k0_pay3; simp only [shapeCast_self]; exact Ideal.ofBits_zero_f32
theorem zero_fill_f (y : S1x1024.Idx) : k0_pay4 (F := Ideal) y = 0 := by
  unfold k0_pay4; simp only [shapeCast_self]; exact Ideal.ofBits_zero_f32
theorem zero_fill_i (y : S1x1024.Idx) : k0_pay5 (F := Ideal) y = 0 := by
  unfold k0_pay5; simp only [shapeCast_self]; exact Ideal.ofBits_zero_f32
theorem zero_fill_o (y : S1x1024.Idx) : k0_pay6 (F := Ideal) y = 0 := by
  unfold k0_pay6; simp only [shapeCast_self]; exact Ideal.ofBits_zero_f32

/-- A bias block, a row of 1024 entries viewed as 1 × 1024, read at `y`: its entry `y 1`. -/
theorem bias_block_apply (b : FVec Ideal S1024 .f32) (y : S1x1024.Idx) :
    shapeCast S1x1024 b shapeCasts_S1024_S1x1024 y = b (ix1 (y 1)) := by
  refine shapeCast_apply b shapeCasts_S1024_S1x1024 y (ix1 (y 1)) ?_
  rw [Shape.rowMajor_val_one, Shape.rowMajor_val_two]
  have h1 : (y 0).val < 1 := (y 0).isLt
  have h0 : (y 0).val = 0 := by omega
  show (y 1).val = (y 0).val * 1024 + (y 1).val
  omega

/-- The last point's result block, at an index: the specification's combination of the four finished accumulators plus
    their bias entries, and the previous cell entry. -/
theorem result_block_apply (ac af ai ao cblk : FVec Ideal S1x1024 .f32) (bc bf bi bo : FVec Ideal S1024 .f32) (y : S1x1024.Idx) :
    k0_pay2 (F := Ideal) ac bc af bf ai bi ao bo cblk y
      = Cert.LstmSpec.combine (ac y + bc (ix1 (y 1))) (af y + bf (ix1 (y 1))) (ai y + bi (ix1 (y 1))) (ao y + bo (ix1 (y 1))) (cblk y) := by
  unfold k0_pay2 Cert.LstmSpec.combine
  show Ideal.logistic (ao y + shapeCast S1x1024 bo shapeCasts_S1024_S1x1024 y)
      * Ideal.tanh (cblk y * Ideal.logistic (af y + shapeCast S1x1024 bf shapeCasts_S1024_S1x1024 y)
        + Ideal.tanh (ac y + shapeCast S1x1024 bc shapeCasts_S1024_S1x1024 y) * Ideal.logistic (ai y + shapeCast S1x1024 bi shapeCasts_S1024_S1x1024 y)) = _
  rw [bias_block_apply, bias_block_apply, bias_block_apply, bias_block_apply]

end Cert.KernelPayloads

end
-- ==== Proof.LibBlockSum.lean ====
/-
  Regrouping a finite sum into consecutive blocks.

  A sum over the `a * b` indices `0 … a*b - 1` is the sum, over the `a` blocks, of the sum of the `b` consecutive
  entries of each block: entry `j` of block `k` is index `k * b + j`. Only commutativity and associativity of the
  addition are used, so the law holds in every additive commutative monoid — in particular on the extended reals,
  where no finiteness of the summands is needed.
-/
import Mathlib.Algebra.BigOperators.Fin
import Mathlib.Logic.Equiv.Fin.Basic

namespace Cert.LibBlockSum

open Finset

/-- Index `k * b + j` of entry `j` in block `k`, as an index below `a * b`. -/
def blockIx (a b : ℕ) (k : Fin a) (j : Fin b) : Fin (a * b) :=
  ⟨k.val * b + j.val, by
    have hk : k.val + 1 ≤ a := k.isLt
    have hj := j.isLt
    calc k.val * b + j.val < k.val * b + b := Nat.add_lt_add_left hj _
      _ = (k.val + 1) * b := (Nat.succ_mul _ _).symm
      _ ≤ a * b := Nat.mul_le_mul_right b hk⟩

@[simp] theorem blockIx_val (a b : ℕ) (k : Fin a) (j : Fin b) : (blockIx a b k j).val = k.val * b + j.val := rfl

/-- A sum over `a * b` consecutive indices is the sum over the `a` blocks of the `b` entries of each. -/
theorem sum_blocks {M : Type*} [AddCommMonoid M] (a b : ℕ) (f : Fin (a * b) → M) :
    ∑ i : Fin (a * b), f i = ∑ k : Fin a, ∑ j : Fin b, f (blockIx a b k j) := by
  rw [← Fintype.sum_prod_type' (f := fun k j => f (blockIx a b k j))]
  refine (Equiv.sum_comp (finProdFinEquiv (m := a) (n := b)) f).symm.trans ?_
  refine Finset.sum_congr rfl fun p _ => congrArg f (Fin.ext ?_)
  simp [finProdFinEquiv, blockIx_val, Nat.mul_comm, Nat.add_comm]

/-- The same with the blocks enumerated by a range of naturals — the form a fold over consecutive steps produces. `g` is
    the per-block summand as a function of every natural; only its values at the `a` block numbers matter. -/
theorem sum_range_blocks {M : Type*} [AddCommMonoid M] (a b : ℕ) (f : Fin (a * b) → M) (g : ℕ → M)
    (hg : ∀ k : Fin a, g k.val = ∑ j : Fin b, f (blockIx a b k j)) :
    ∑ s ∈ Finset.range a, g s = ∑ i : Fin (a * b), f i := by
  rw [Finset.sum_range, sum_blocks]
  exact Finset.sum_congr rfl fun k _ => hg k

/-- The same for an index type `Fin n` whose length is given as a number with `a * b = n` (so that a literal length such as
    16384 need not be rewritten as a product): entry `j` of block `k` is index `k * b + j`. -/
theorem sum_range_blocks_of_eq {M : Type*} [AddCommMonoid M] (a b n : ℕ) (hn : a * b = n) (f : Fin n → M) (g : ℕ → M)
    (hg : ∀ k : Fin a, g k.val = ∑ j : Fin b, f ⟨k.val * b + j.val, hn ▸ (blockIx a b k j).isLt⟩) :
    ∑ s ∈ Finset.range a, g s = ∑ i : Fin n, f i := by
  subst hn
  exact sum_range_blocks a b f g hg

end Cert.LibBlockSum
-- ==== Proof.KernelValue.lean ====
/-
  What the kernel's result array holds after the run, at the extended reals: the specification's new hidden row of the
  joined row, the previous cell row and the four gates' weights and biases, as the region finds them.

  The grid has 8 column blocks of 1024 result entries, and for each a run of 16 points, one per block of 1024 joined
  entries; point `t` is point `t % 16` of the run of column block `t / 16`. Over a run each gate's accumulator row
  starts at zero and gains, at point `s`, the inner product of joined block `s` with block `(s, t / 16)` of the gate's
  matrix. After the run's last point it therefore holds, at column `q`, the sum over the 16 blocks of the 1024-term
  block sums — which is the single sum over all 16384 joined entries, because a sum may be regrouped into consecutive
  blocks (no finiteness is used: only that addition of extended reals is commutative and associative). The last point
  then stores the combination of the four finished accumulators plus biases and the previous cell block, and only the
  last point of each run writes the result's block back; the eight blocks written back tile the result row.
-/
import proofs.«103221_j54288386622134_1_alg».proof.Proof.Gen.KernelIdeal.Value
import proofs.«103221_j54288386622134_1_alg».proof.Proof.KernelPieces
import proofs.«103221_j54288386622134_1_alg».proof.Proof.KernelPayloads
import proofs.«103221_j54288386622134_1_alg».proof.Proof.LibBlockSum
import proofs.«103221_j54288386622134_1_alg».proof.Proof.LstmSpec
import Idealize.ShloMosaic.Lib.Pipeline.Value
import Idealize.ShloMosaic.Lib.StableHlo.Run

noncomputable section

namespace Cert.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each window's block sits at a grid point -/

theorem grid_size : cfg0.N = 128 := N_0

/-- The joined row's block at point `t`: row block 0, column block `t % 16`. -/
theorem joined_block_ix : ∀ t : Fin cfg0.N, win0_0.index t (0 : Fin 2) = 0 ∧ win0_0.index t (1 : Fin 2) = t.val % 16 :=
  (by decide +kernel : ∀ t : Fin grid0.N, win0_0.index t (0 : Fin 2) = 0 ∧ win0_0.index t (1 : Fin 2) = t.val % 16)
/-- The candidate gate's weight block at point `t`: row block `t % 16`, column block `t / 16`; its bias block: `t / 16`. -/
theorem weight_block_ix_c : ∀ t : Fin cfg0.N, win0_1.index t (0 : Fin 2) = t.val % 16 ∧ win0_1.index t (1 : Fin 2) = t.val / 16 :=
  (by decide +kernel : ∀ t : Fin grid0.N, win0_1.index t (0 : Fin 2) = t.val % 16 ∧ win0_1.index t (1 : Fin 2) = t.val / 16)
theorem bias_block_ix_c : ∀ t : Fin cfg0.N, win0_2.index t (0 : Fin 1) = t.val / 16 :=
  (by decide +kernel : ∀ t : Fin grid0.N, win0_2.index t (0 : Fin 1) = t.val / 16)
/-- The forget gate's weight block at point `t`: row block `t % 16`, column block `t / 16`; its bias block: `t / 16`. -/
theorem weight_block_ix_f : ∀ t : Fin cfg0.N, win0_3.index t (0 : Fin 2) = t.val % 16 ∧ win0_3.index t (1 : Fin 2) = t.val / 16 :=
  (by decide +kernel : ∀ t : Fin grid0.N, win0_3.index t (0 : Fin 2) = t.val % 16 ∧ win0_3.index t (1 : Fin 2) = t.val / 16)
theorem bias_block_ix_f : ∀ t : Fin cfg0.N, win0_4.index t (0 : Fin 1) = t.val / 16 :=
  (by decide +kernel : ∀ t : Fin grid0.N, win0_4.index t (0 : Fin 1) = t.val / 16)
/-- The input gate's weight block at point `t`: row block `t % 16`, column block `t / 16`; its bias block: `t / 16`. -/
theorem weight_block_ix_i : ∀ t : Fin cfg0.N, win0_5.index t (0 : Fin 2) = t.val % 16 ∧ win0_5.index t (1 : Fin 2) = t.val / 16 :=
  (by decide +kernel : ∀ t : Fin grid0.N, win0_5.index t (0 : Fin 2) = t.val % 16 ∧ win0_5.index t (1 : Fin 2) = t.val / 16)
theorem bias_block_ix_i : ∀ t : Fin cfg0.N, win0_6.index t (0 : Fin 1) = t.val / 16 :=
  (by decide +kernel : ∀ t : Fin grid0.N, win0_6.index t (0 : Fin 1) = t.val / 16)
/-- The output gate's weight block at point `t`: row block `t % 16`, column block `t / 16`; its bias block: `t / 16`. -/
theorem weight_block_ix_o : ∀ t : Fin cfg0.N, win0_7.index t (0 : Fin 2) = t.val % 16 ∧ win0_7.index t (1 : Fin 2) = t.val / 16 :=
  (by decide +kernel : ∀ t : Fin grid0.N, win0_7.index t (0 : Fin 2) = t.val % 16 ∧ win0_7.index t (1 : Fin 2) = t.val / 16)
theorem bias_block_ix_o : ∀ t : Fin cfg0.N, win0_8.index t (0 : Fin 1) = t.val / 16 :=
  (by decide +kernel : ∀ t : Fin grid0.N, win0_8.index t (0 : Fin 1) = t.val / 16)
/-- The previous cell row's block and the result's block at point `t`: row block 0, column block `t / 16`. -/
theorem cell_block_ix : ∀ t : Fin cfg0.N, win0_9.index t (0 : Fin 2) = 0 ∧ win0_9.index t (1 : Fin 2) = t.val / 16 :=
  (by decide +kernel : ∀ t : Fin grid0.N, win0_9.index t (0 : Fin 2) = 0 ∧ win0_9.index t (1 : Fin 2) = t.val / 16)
theorem result_block_ix : ∀ t : Fin cfg0.N, win0_10.index t (0 : Fin 2) = 0 ∧ win0_10.index t (1 : Fin 2) = t.val / 16 :=
  (by decide +kernel : ∀ t : Fin grid0.N, win0_10.index t (0 : Fin 2) = 0 ∧ win0_10.index t (1 : Fin 2) = t.val / 16)

/-- Entry `s` of the joined block of point `t`, as a position in the joined row. -/
def joinedPos (t : Fin cfg0.N) (s : Fin 1024) : Fin 16384 := ⟨t.val % 16 * 1024 + s.val, by omega⟩
/-- Column `q` of the column block of point `t`, as a column of the result row. -/
def colPos (t : Fin cfg0.N) (q : Fin 1024) : Fin 8192 :=
  ⟨t.val / 16 * 1024 + q.val, by have := lt_of_lt_of_eq t.isLt grid_size; omega⟩

/-! ## The blocks the body loads, read off the arrays -/

/-- The joined block of point `t` at (row `p`, entry `s`) is the joined row at (row `p`, position `joinedPos t s`). -/
theorem joined_block (c : Dev nD) (t : Fin cfg0.N) (p : Fin 1) (s : Fin 1024) :
    (iblk m c 0 t : Vec Ideal S1x1024 .f32) (ix2 p s) = V m c main_v0 (ix2 p (joinedPos t s)) := by
  unfold iblk
  rw [View.read_apply]
  show V m c main_v0 _ = V m c main_v0 _
  congr 1
  funext a
  apply Fin.ext
  match a with
  | ⟨0, _⟩ => show win0_0.index t (0 : Fin 2) * 1 + 1 * p.val = p.val; rw [(joined_block_ix t).1]; omega
  | ⟨1, _⟩ => show win0_0.index t (1 : Fin 2) * 1024 + 1 * s.val = t.val % 16 * 1024 + s.val; rw [(joined_block_ix t).2]; omega

/-- The candidate gate's weight block of point `t` at (entry `s`, column `q`) is its matrix at (`joinedPos t s`, `colPos t q`). -/
theorem weight_block_c (c : Dev nD) (t : Fin cfg0.N) (s q : Fin 1024) :
    (iblk m c 1 t : Vec Ideal S1024x1024 .f32) (ix2 s q) = V m c main_arg3 (ix2 (joinedPos t s) (colPos t q)) := by
  unfold iblk
  rw [View.read_apply]
  show V m c main_arg3 _ = V m c main_arg3 _
  congr 1
  funext a
  apply Fin.ext
  match a with
  | ⟨0, _⟩ => show win0_1.index t (0 : Fin 2) * 1024 + 1 * s.val = t.val % 16 * 1024 + s.val; rw [(weight_block_ix_c t).1]; omega
  | ⟨1, _⟩ => show win0_1.index t (1 : Fin 2) * 1024 + 1 * q.val = t.val / 16 * 1024 + q.val; rw [(weight_block_ix_c t).2]; omega

/-- Its bias block at entry `q` is its bias at `colPos t q`. -/
theorem bias_block_c (c : Dev nD) (t : Fin cfg0.N) (q : Fin 1024) :
    (iblk m c 2 t : Vec Ideal S1024 .f32) (ix1 q) = V m c main_arg4 (ix1 (colPos t q)) := by
  unfold iblk
  rw [View.read_apply]
  show V m c main_arg4 _ = V m c main_arg4 _
  congr 1
  funext a
  apply Fin.ext
  match a with
  | ⟨0, _⟩ => show win0_2.index t (0 : Fin 1) * 1024 + 1 * q.val = t.val / 16 * 1024 + q.val; rw [bias_block_ix_c t]; omega

/-- The forget gate's weight block of point `t` at (entry `s`, column `q`) is its matrix at (`joinedPos t s`, `colPos t q`). -/
theorem weight_block_f (c : Dev nD) (t : Fin cfg0.N) (s q : Fin 1024) :
    (iblk m c 3 t : Vec Ideal S1024x1024 .f32) (ix2 s q) = V m c main_arg5 (ix2 (joinedPos t s) (colPos t q)) := by
  unfold iblk
  rw [View.read_apply]
  show V m c main_arg5 _ = V m c main_arg5 _
  congr 1
  funext a
  apply Fin.ext
  match a with
  | ⟨0, _⟩ => show win0_3.index t (0 : Fin 2) * 1024 + 1 * s.val = t.val % 16 * 1024 + s.val; rw [(weight_block_ix_f t).1]; omega
  | ⟨1, _⟩ => show win0_3.index t (1 : Fin 2) * 1024 + 1 * q.val = t.val / 16 * 1024 + q.val; rw [(weight_block_ix_f t).2]; omega

/-- Its bias block at entry `q` is its bias at `colPos t q`. -/
theorem bias_block_f (c : Dev nD) (t : Fin cfg0.N) (q : Fin 1024) :
    (iblk m c 4 t : Vec Ideal S1024 .f32) (ix1 q) = V m c main_arg6 (ix1 (colPos t q)) := by
  unfold iblk
  rw [View.read_apply]
  show V m c main_arg6 _ = V m c main_arg6 _
  congr 1
  funext a
  apply Fin.ext
  match a with
  | ⟨0, _⟩ => show win0_4.index t (0 : Fin 1) * 1024 + 1 * q.val = t.val / 16 * 1024 + q.val; rw [bias_block_ix_f t]; omega

/-- The input gate's weight block of point `t` at (entry `s`, column `q`) is its matrix at (`joinedPos t s`, `colPos t q`). -/
theorem weight_block_i (c : Dev nD) (t : Fin cfg0.N) (s q : Fin 1024) :
    (iblk m c 5 t : Vec Ideal S1024x1024 .f32) (ix2 s q) = V m c main_arg7 (ix2 (joinedPos t s) (colPos t q)) := by
  unfold iblk
  rw [View.read_apply]
  show V m c main_arg7 _ = V m c main_arg7 _
  congr 1
  funext a
  apply Fin.ext
  match a with
  | ⟨0, _⟩ => show win0_5.index t (0 : Fin 2) * 1024 + 1 * s.val = t.val % 16 * 1024 + s.val; rw [(weight_block_ix_i t).1]; omega
  | ⟨1, _⟩ => show win0_5.index t (1 : Fin 2) * 1024 + 1 * q.val = t.val / 16 * 1024 + q.val; rw [(weight_block_ix_i t).2]; omega

/-- Its bias block at entry `q` is its bias at `colPos t q`. -/
theorem bias_block_i (c : Dev nD) (t : Fin cfg0.N) (q : Fin 1024) :
    (iblk m c 6 t : Vec Ideal S1024 .f32) (ix1 q) = V m c main_arg8 (ix1 (colPos t q)) := by
  unfold iblk
  rw [View.read_apply]
  show V m c main_arg8 _ = V m c main_arg8 _
  congr 1
  funext a
  apply Fin.ext
  match a with
  | ⟨0, _⟩ => show win0_6.index t (0 : Fin 1) * 1024 + 1 * q.val = t.val / 16 * 1024 + q.val; rw [bias_block_ix_i t]; omega

/-- The output gate's weight block of point `t` at (entry `s`, column `q`) is its matrix at (`joinedPos t s`, `colPos t q`). -/
theorem weight_block_o (c : Dev nD) (t : Fin cfg0.N) (s q : Fin 1024) :
    (iblk m c 7 t : Vec Ideal S1024x1024 .f32) (ix2 s q) = V m c main_arg9 (ix2 (joinedPos t s) (colPos t q)) := by
  unfold iblk
  rw [View.read_apply]
  show V m c main_arg9 _ = V m c main_arg9 _
  congr 1
  funext a
  apply Fin.ext
  match a with
  | ⟨0, _⟩ => show win0_7.index t (0 : Fin 2) * 1024 + 1 * s.val = t.val % 16 * 1024 + s.val; rw [(weight_block_ix_o t).1]; omega
  | ⟨1, _⟩ => show win0_7.index t (1 : Fin 2) * 1024 + 1 * q.val = t.val / 16 * 1024 + q.val; rw [(weight_block_ix_o t).2]; omega

/-- Its bias block at entry `q` is its bias at `colPos t q`. -/
theorem bias_block_o (c : Dev nD) (t : Fin cfg0.N) (q : Fin 1024) :
    (iblk m c 8 t : Vec Ideal S1024 .f32) (ix1 q) = V m c main_arg10 (ix1 (colPos t q)) := by
  unfold iblk
  rw [View.read_apply]
  show V m c main_arg10 _ = V m c main_arg10 _
  congr 1
  funext a
  apply Fin.ext
  match a with
  | ⟨0, _⟩ => show win0_8.index t (0 : Fin 1) * 1024 + 1 * q.val = t.val / 16 * 1024 + q.val; rw [bias_block_ix_o t]; omega

/-- The previous cell row's block of point `t` at `y` is the cell row at (row `y 0`, column `colPos t (y 1)`). -/
theorem cell_block (c : Dev nD) (t : Fin cfg0.N) (y : S1x1024.Idx) :
    (iblk m c 9 t : Vec Ideal S1x1024 .f32) y = V m c main_arg2 (ix2 (y 0) (colPos t (y 1))) := by
  unfold iblk
  rw [View.read_apply]
  show V m c main_arg2 _ = V m c main_arg2 _
  congr 1
  funext a
  apply Fin.ext
  match a with
  | ⟨0, _⟩ => show win0_9.index t (0 : Fin 2) * 1 + 1 * (y 0).val = (y 0).val; rw [(cell_block_ix t).1]; omega
  | ⟨1, _⟩ => show win0_9.index t (1 : Fin 2) * 1024 + 1 * (y 1).val = t.val / 16 * 1024 + (y 1).val; rw [(cell_block_ix t).2]; omega

/-- Entry `y` of the result's block of point `t` sits in the result row at (row `y 0`, column `colPos t (y 1)`). -/
theorem result_emb (t : Fin cfg0.N) (y : S1x1024.Idx) :
    ((cfg0.win 10).blk t).view.emb y = (ix2 (y 0) (colPos t (y 1)) : S1x8192.Idx) := by
  funext a
  apply Fin.ext
  match a with
  | ⟨0, _⟩ => show win0_10.index t (0 : Fin 2) * 1 + 1 * (y 0).val = (y 0).val; rw [(result_block_ix t).1]; omega
  | ⟨1, _⟩ => show win0_10.index t (1 : Fin 2) * 1024 + 1 * (y 1).val = t.val / 16 * 1024 + (y 1).val; rw [(result_block_ix t).2]; omega

/-! ## The accumulators over a run -/

/-- What point `n` adds to the candidate gate's accumulator: the inner product of its joined block with its weight block
    (zero past the grid, where the value is never used). -/
def addend_c (c : Dev nD) (n : ℕ) (y : S1x1024.Idx) : EReal :=
  if h : n < cfg0.N then KernelPayloads.blockDot (iblk m c 0 ⟨n, h⟩) (iblk m c 1 ⟨n, h⟩) y else 0

/-- The candidate gate's accumulator after point `t`: zero plus the addends of the run's points up to `t`. -/
theorem acc_c (c : Dev nD) (t : Fin cfg0.N) (y : S1x1024.Idx) :
    (outsAt0 m c t.val t.isLt).2.1 y = 0 + ∑ s ∈ Finset.range (t.val % 16 + 1), addend_c m c (16 * (t.val / 16) + s) y := by
  rw [Value.soutsAt0_0_eq m c t]
  refine Pipeline.accAt_add_apply (ι := S1x1024.Idx) (β := EReal) _ _ (fun _ => 0) (addend_c m c) (16 * (t.val / 16)) 15 ?_ ?_
    (t.val % 16) (by omega) _ y
  · intro h y
    have hb0 : 16 * (t.val / 16) % 16 = 0 := Nat.mul_mod_right 16 _
    have hb15 : ¬16 * (t.val / 16) % 16 = 15 := by omega
    show Value.scAt0_0 m c (16 * (t.val / 16)) h _ y = 0 + addend_c m c (16 * (t.val / 16)) y
    unfold Value.scAt0_0 addend_c
    rw [dif_pos hb0, dif_neg hb15, dif_pos h]
    refine (congrFun (KernelPieces.first_candidate (F := Ideal) c (grid0.coords (⟨16 * (t.val / 16), h⟩ : Fin cfg0.N)) (ms0_0 (⟨16 * (t.val / 16), h⟩ : Fin cfg0.N)) (hs0_0 (⟨16 * (t.val / 16), h⟩ : Fin cfg0.N)) (ms0_1 (⟨16 * (t.val / 16), h⟩ : Fin cfg0.N)) (hs0_1 (⟨16 * (t.val / 16), h⟩ : Fin cfg0.N)) (ms0_2 (⟨16 * (t.val / 16), h⟩ : Fin cfg0.N)) (hs0_2 (⟨16 * (t.val / 16), h⟩ : Fin cfg0.N)) (ms0_3 (⟨16 * (t.val / 16), h⟩ : Fin cfg0.N)) (hs0_3 (⟨16 * (t.val / 16), h⟩ : Fin cfg0.N)) (ms0_4 (⟨16 * (t.val / 16), h⟩ : Fin cfg0.N)) (hs0_4 (⟨16 * (t.val / 16), h⟩ : Fin cfg0.N)) (ms0_5 (⟨16 * (t.val / 16), h⟩ : Fin cfg0.N)) (hs0_5 (⟨16 * (t.val / 16), h⟩ : Fin cfg0.N)) (ms0_6 (⟨16 * (t.val / 16), h⟩ : Fin cfg0.N)) (hs0_6 (⟨16 * (t.val / 16), h⟩ : Fin cfg0.N)) (ms0_7 (⟨16 * (t.val / 16), h⟩ : Fin cfg0.N)) (hs0_7 (⟨16 * (t.val / 16), h⟩ : Fin cfg0.N)) (ms0_8 (⟨16 * (t.val / 16), h⟩ : Fin cfg0.N)) (hs0_8 (⟨16 * (t.val / 16), h⟩ : Fin cfg0.N)) (ms0_9 (⟨16 * (t.val / 16), h⟩ : Fin cfg0.N)) (hs0_9 (⟨16 * (t.val / 16), h⟩ : Fin cfg0.N)) (ms0_10 (⟨16 * (t.val / 16), h⟩ : Fin cfg0.N)) (hs0_10 (⟨16 * (t.val / 16), h⟩ : Fin cfg0.N)) scM0_0 (Memref.isWhole_whole _) scM0_1 (Memref.isWhole_whole _) scM0_2 (Memref.isWhole_whole _) scM0_3 (Memref.isWhole_whole _)
      ((hcond0_0 (⟨16 * (t.val / 16), h⟩ : Fin cfg0.N)).mpr hb0) (fun hh => hb15 ((hcond0_1 (⟨16 * (t.val / 16), h⟩ : Fin cfg0.N)).mp hh))
      (iblk m c 0 (⟨16 * (t.val / 16), h⟩ : Fin cfg0.N)) (iblk m c 1 (⟨16 * (t.val / 16), h⟩ : Fin cfg0.N)) (iblk m c 2 (⟨16 * (t.val / 16), h⟩ : Fin cfg0.N)) (iblk m c 3 (⟨16 * (t.val / 16), h⟩ : Fin cfg0.N)) (iblk m c 4 (⟨16 * (t.val / 16), h⟩ : Fin cfg0.N)) (iblk m c 5 (⟨16 * (t.val / 16), h⟩ : Fin cfg0.N)) (iblk m c 6 (⟨16 * (t.val / 16), h⟩ : Fin cfg0.N)) (iblk m c 7 (⟨16 * (t.val / 16), h⟩ : Fin cfg0.N)) (iblk m c 8 (⟨16 * (t.val / 16), h⟩ : Fin cfg0.N)) (iblk m c 9 (⟨16 * (t.val / 16), h⟩ : Fin cfg0.N))) y).trans ?_
    refine (KernelPayloads.update_c_apply (iblk m c 0 (⟨16 * (t.val / 16), h⟩ : Fin cfg0.N)) k0_pay3 (iblk m c 1 (⟨16 * (t.val / 16), h⟩ : Fin cfg0.N)) y).trans ?_
    rw [KernelPayloads.zero_fill_c]
  · intro n h acc y hlo hhi
    have hn0 : ¬n % 16 = 0 := by omega
    show Value.scAt0_0 m c n h acc y = acc y + addend_c m c n y
    unfold Value.scAt0_0 addend_c
    rw [dif_neg hn0, dif_pos h]
    by_cases hn15 : n % 16 = 15
    · rw [dif_pos hn15]
      refine (congrFun (KernelPieces.last_candidate (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) ((hcond0_1 (⟨n, h⟩ : Fin cfg0.N)).mpr hn15)
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_c_apply (iblk m c 0 (⟨n, h⟩ : Fin cfg0.N)) acc (iblk m c 1 (⟨n, h⟩ : Fin cfg0.N)) y
    · rw [dif_neg hn15]
      refine (congrFun (KernelPieces.middle_candidate (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) (fun hh => hn15 ((hcond0_1 (⟨n, h⟩ : Fin cfg0.N)).mp hh))
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_c_apply (iblk m c 0 (⟨n, h⟩ : Fin cfg0.N)) acc (iblk m c 1 (⟨n, h⟩ : Fin cfg0.N)) y

/-- At a run's last point the candidate gate's accumulator is the body's update of what the point before left. -/
theorem last_acc_c (c : Dev nD) (t : Fin cfg0.N) (h0 : ¬t.val % 16 = 0) (h15 : t.val % 16 = 15) :
    (outsAt0 m c t.val t.isLt).2.1 = k0_pay8 (iblk m c 0 t) (outsAt0 m c (t.val - 1) (Nat.lt_of_le_of_lt (Nat.sub_le _ _) t.isLt)).2.1 (iblk m c 1 t) :=
  by
  rw [outsAt0_C m c t h0 h15]
  dsimp only
  exact KernelPieces.last_candidate (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (fun hh => h0 ((hcond0_0 t).mp hh)) ((hcond0_1 t).mpr h15)
    (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After a run's last point the candidate gate's accumulator plus its bias entry is the specification's pre-activation at
    the result index the entry is written to: the sixteen block sums regroup into the one sum over the joined row. -/
theorem pre_c (c : Dev nD) (t : Fin cfg0.N) (h15 : t.val % 16 = 15) (y : S1x1024.Idx) :
    (outsAt0 m c t.val t.isLt).2.1 y + (iblk m c 2 t : Vec Ideal S1024 .f32) (ix1 (y 1))
      = Cert.LstmSpec.pre (V m c main_v0) (V m c main_arg3) (V m c main_arg4) (ix2 (y 0) (colPos t (y 1))) := by
  have hN : t.val < 128 := lt_of_lt_of_eq t.isLt grid_size
  rw [acc_c m c t y, h15, zero_add, bias_block_c m c t (y 1)]
  unfold Cert.LstmSpec.pre
  refine congrArg₂ (· + ·) ?_ rfl
  refine Cert.LibBlockSum.sum_range_blocks_of_eq 16 1024 16384 (by decide) _ _ (fun k => ?_)
  have hlt : 16 * (t.val / 16) + k.val < cfg0.N := lt_of_lt_of_eq (by omega : 16 * (t.val / 16) + k.val < 128) grid_size.symm
  unfold addend_c
  rw [dif_pos hlt]
  unfold KernelPayloads.blockDot
  refine Finset.sum_congr rfl fun r _ => ?_
  rw [joined_block m c ⟨_, hlt⟩ (y 0) r, weight_block_c m c ⟨_, hlt⟩ r (y 1)]
  have hk : k.val * 1024 + r.val < 16384 := by omega
  have e1 : joinedPos ⟨16 * (t.val / 16) + k.val, hlt⟩ r = ⟨k.val * 1024 + r.val, hk⟩ :=
    Fin.ext (by show (16 * (t.val / 16) + k.val) % 16 * 1024 + r.val = k.val * 1024 + r.val; omega)
  have e2 : colPos ⟨16 * (t.val / 16) + k.val, hlt⟩ (y 1) = colPos t (y 1) :=
    Fin.ext (by show (16 * (t.val / 16) + k.val) / 16 * 1024 + (y 1).val = t.val / 16 * 1024 + (y 1).val; omega)
  rw [e1, e2]
  <;> rfl

/-- What point `n` adds to the forget gate's accumulator: the inner product of its joined block with its weight block
    (zero past the grid, where the value is never used). -/
def addend_f (c : Dev nD) (n : ℕ) (y : S1x1024.Idx) : EReal :=
  if h : n < cfg0.N then KernelPayloads.blockDot (iblk m c 0 ⟨n, h⟩) (iblk m c 3 ⟨n, h⟩) y else 0

/-- The forget gate's accumulator after point `t`: zero plus the addends of the run's points up to `t`. -/
theorem acc_f (c : Dev nD) (t : Fin cfg0.N) (y : S1x1024.Idx) :
    (outsAt0 m c t.val t.isLt).2.2.1 y = 0 + ∑ s ∈ Finset.range (t.val % 16 + 1), addend_f m c (16 * (t.val / 16) + s) y := by
  rw [Value.soutsAt0_1_eq m c t]
  refine Pipeline.accAt_add_apply (ι := S1x1024.Idx) (β := EReal) _ _ (fun _ => 0) (addend_f m c) (16 * (t.val / 16)) 15 ?_ ?_
    (t.val % 16) (by omega) _ y
  · intro h y
    have hb0 : 16 * (t.val / 16) % 16 = 0 := Nat.mul_mod_right 16 _
    have hb15 : ¬16 * (t.val / 16) % 16 = 15 := by omega
    show Value.scAt0_1 m c (16 * (t.val / 16)) h _ y = 0 + addend_f m c (16 * (t.val / 16)) y
    unfold Value.scAt0_1 addend_f
    rw [dif_pos hb0, dif_neg hb15, dif_pos h]
    refine (congrFun (KernelPieces.first_forget (F := Ideal) c (grid0.coords (⟨16 * (t.val / 16), h⟩ : Fin cfg0.N)) (ms0_0 (⟨16 * (t.val / 16), h⟩ : Fin cfg0.N)) (hs0_0 (⟨16 * (t.val / 16), h⟩ : Fin cfg0.N)) (ms0_1 (⟨16 * (t.val / 16), h⟩ : Fin cfg0.N)) (hs0_1 (⟨16 * (t.val / 16), h⟩ : Fin cfg0.N)) (ms0_2 (⟨16 * (t.val / 16), h⟩ : Fin cfg0.N)) (hs0_2 (⟨16 * (t.val / 16), h⟩ : Fin cfg0.N)) (ms0_3 (⟨16 * (t.val / 16), h⟩ : Fin cfg0.N)) (hs0_3 (⟨16 * (t.val / 16), h⟩ : Fin cfg0.N)) (ms0_4 (⟨16 * (t.val / 16), h⟩ : Fin cfg0.N)) (hs0_4 (⟨16 * (t.val / 16), h⟩ : Fin cfg0.N)) (ms0_5 (⟨16 * (t.val / 16), h⟩ : Fin cfg0.N)) (hs0_5 (⟨16 * (t.val / 16), h⟩ : Fin cfg0.N)) (ms0_6 (⟨16 * (t.val / 16), h⟩ : Fin cfg0.N)) (hs0_6 (⟨16 * (t.val / 16), h⟩ : Fin cfg0.N)) (ms0_7 (⟨16 * (t.val / 16), h⟩ : Fin cfg0.N)) (hs0_7 (⟨16 * (t.val / 16), h⟩ : Fin cfg0.N)) (ms0_8 (⟨16 * (t.val / 16), h⟩ : Fin cfg0.N)) (hs0_8 (⟨16 * (t.val / 16), h⟩ : Fin cfg0.N)) (ms0_9 (⟨16 * (t.val / 16), h⟩ : Fin cfg0.N)) (hs0_9 (⟨16 * (t.val / 16), h⟩ : Fin cfg0.N)) (ms0_10 (⟨16 * (t.val / 16), h⟩ : Fin cfg0.N)) (hs0_10 (⟨16 * (t.val / 16), h⟩ : Fin cfg0.N)) scM0_0 (Memref.isWhole_whole _) scM0_1 (Memref.isWhole_whole _) scM0_2 (Memref.isWhole_whole _) scM0_3 (Memref.isWhole_whole _)
      ((hcond0_0 (⟨16 * (t.val / 16), h⟩ : Fin cfg0.N)).mpr hb0) (fun hh => hb15 ((hcond0_1 (⟨16 * (t.val / 16), h⟩ : Fin cfg0.N)).mp hh))
      (iblk m c 0 (⟨16 * (t.val / 16), h⟩ : Fin cfg0.N)) (iblk m c 1 (⟨16 * (t.val / 16), h⟩ : Fin cfg0.N)) (iblk m c 2 (⟨16 * (t.val / 16), h⟩ : Fin cfg0.N)) (iblk m c 3 (⟨16 * (t.val / 16), h⟩ : Fin cfg0.N)) (iblk m c 4 (⟨16 * (t.val / 16), h⟩ : Fin cfg0.N)) (iblk m c 5 (⟨16 * (t.val / 16), h⟩ : Fin cfg0.N)) (iblk m c 6 (⟨16 * (t.val / 16), h⟩ : Fin cfg0.N)) (iblk m c 7 (⟨16 * (t.val / 16), h⟩ : Fin cfg0.N)) (iblk m c 8 (⟨16 * (t.val / 16), h⟩ : Fin cfg0.N)) (iblk m c 9 (⟨16 * (t.val / 16), h⟩ : Fin cfg0.N))) y).trans ?_
    refine (KernelPayloads.update_f_apply (iblk m c 0 (⟨16 * (t.val / 16), h⟩ : Fin cfg0.N)) k0_pay4 (iblk m c 3 (⟨16 * (t.val / 16), h⟩ : Fin cfg0.N)) y).trans ?_
    rw [KernelPayloads.zero_fill_f]
  · intro n h acc y hlo hhi
    have hn0 : ¬n % 16 = 0 := by omega
    show Value.scAt0_1 m c n h acc y = acc y + addend_f m c n y
    unfold Value.scAt0_1 addend_f
    rw [dif_neg hn0, dif_pos h]
    by_cases hn15 : n % 16 = 15
    · rw [dif_pos hn15]
      refine (congrFun (KernelPieces.last_forget (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) ((hcond0_1 (⟨n, h⟩ : Fin cfg0.N)).mpr hn15)
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_f_apply (iblk m c 0 (⟨n, h⟩ : Fin cfg0.N)) acc (iblk m c 3 (⟨n, h⟩ : Fin cfg0.N)) y
    · rw [dif_neg hn15]
      refine (congrFun (KernelPieces.middle_forget (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) (fun hh => hn15 ((hcond0_1 (⟨n, h⟩ : Fin cfg0.N)).mp hh))
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_f_apply (iblk m c 0 (⟨n, h⟩ : Fin cfg0.N)) acc (iblk m c 3 (⟨n, h⟩ : Fin cfg0.N)) y

/-- At a run's last point the forget gate's accumulator is the body's update of what the point before left. -/
theorem last_acc_f (c : Dev nD) (t : Fin cfg0.N) (h0 : ¬t.val % 16 = 0) (h15 : t.val % 16 = 15) :
    (outsAt0 m c t.val t.isLt).2.2.1 = k0_pay9 (iblk m c 0 t) (outsAt0 m c (t.val - 1) (Nat.lt_of_le_of_lt (Nat.sub_le _ _) t.isLt)).2.2.1 (iblk m c 3 t) :=
  by
  rw [outsAt0_C m c t h0 h15]
  dsimp only
  exact KernelPieces.last_forget (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (fun hh => h0 ((hcond0_0 t).mp hh)) ((hcond0_1 t).mpr h15)
    (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After a run's last point the forget gate's accumulator plus its bias entry is the specification's pre-activation at
    the result index the entry is written to: the sixteen block sums regroup into the one sum over the joined row. -/
theorem pre_f (c : Dev nD) (t : Fin cfg0.N) (h15 : t.val % 16 = 15) (y : S1x1024.Idx) :
    (outsAt0 m c t.val t.isLt).2.2.1 y + (iblk m c 4 t : Vec Ideal S1024 .f32) (ix1 (y 1))
      = Cert.LstmSpec.pre (V m c main_v0) (V m c main_arg5) (V m c main_arg6) (ix2 (y 0) (colPos t (y 1))) := by
  have hN : t.val < 128 := lt_of_lt_of_eq t.isLt grid_size
  rw [acc_f m c t y, h15, zero_add, bias_block_f m c t (y 1)]
  unfold Cert.LstmSpec.pre
  refine congrArg₂ (· + ·) ?_ rfl
  refine Cert.LibBlockSum.sum_range_blocks_of_eq 16 1024 16384 (by decide) _ _ (fun k => ?_)
  have hlt : 16 * (t.val / 16) + k.val < cfg0.N := lt_of_lt_of_eq (by omega : 16 * (t.val / 16) + k.val < 128) grid_size.symm
  unfold addend_f
  rw [dif_pos hlt]
  unfold KernelPayloads.blockDot
  refine Finset.sum_congr rfl fun r _ => ?_
  rw [joined_block m c ⟨_, hlt⟩ (y 0) r, weight_block_f m c ⟨_, hlt⟩ r (y 1)]
  have hk : k.val * 1024 + r.val < 16384 := by omega
  have e1 : joinedPos ⟨16 * (t.val / 16) + k.val, hlt⟩ r = ⟨k.val * 1024 + r.val, hk⟩ :=
    Fin.ext (by show (16 * (t.val / 16) + k.val) % 16 * 1024 + r.val = k.val * 1024 + r.val; omega)
  have e2 : colPos ⟨16 * (t.val / 16) + k.val, hlt⟩ (y 1) = colPos t (y 1) :=
    Fin.ext (by show (16 * (t.val / 16) + k.val) / 16 * 1024 + (y 1).val = t.val / 16 * 1024 + (y 1).val; omega)
  rw [e1, e2]
  <;> rfl

/-- What point `n` adds to the input gate's accumulator: the inner product of its joined block with its weight block
    (zero past the grid, where the value is never used). -/
def addend_i (c : Dev nD) (n : ℕ) (y : S1x1024.Idx) : EReal :=
  if h : n < cfg0.N then KernelPayloads.blockDot (iblk m c 0 ⟨n, h⟩) (iblk m c 5 ⟨n, h⟩) y else 0

/-- The input gate's accumulator after point `t`: zero plus the addends of the run's points up to `t`. -/
theorem acc_i (c : Dev nD) (t : Fin cfg0.N) (y : S1x1024.Idx) :
    (outsAt0 m c t.val t.isLt).2.2.2.1 y = 0 + ∑ s ∈ Finset.range (t.val % 16 + 1), addend_i m c (16 * (t.val / 16) + s) y := by
  rw [Value.soutsAt0_2_eq m c t]
  refine Pipeline.accAt_add_apply (ι := S1x1024.Idx) (β := EReal) _ _ (fun _ => 0) (addend_i m c) (16 * (t.val / 16)) 15 ?_ ?_
    (t.val % 16) (by omega) _ y
  · intro h y
    have hb0 : 16 * (t.val / 16) % 16 = 0 := Nat.mul_mod_right 16 _
    have hb15 : ¬16 * (t.val / 16) % 16 = 15 := by omega
    show Value.scAt0_2 m c (16 * (t.val / 16)) h _ y = 0 + addend_i m c (16 * (t.val / 16)) y
    unfold Value.scAt0_2 addend_i
    rw [dif_pos hb0, dif_neg hb15, dif_pos h]
    refine (congrFun (KernelPieces.first_input (F := Ideal) c (grid0.coords (⟨16 * (t.val / 16), h⟩ : Fin cfg0.N)) (ms0_0 (⟨16 * (t.val / 16), h⟩ : Fin cfg0.N)) (hs0_0 (⟨16 * (t.val / 16), h⟩ : Fin cfg0.N)) (ms0_1 (⟨16 * (t.val / 16), h⟩ : Fin cfg0.N)) (hs0_1 (⟨16 * (t.val / 16), h⟩ : Fin cfg0.N)) (ms0_2 (⟨16 * (t.val / 16), h⟩ : Fin cfg0.N)) (hs0_2 (⟨16 * (t.val / 16), h⟩ : Fin cfg0.N)) (ms0_3 (⟨16 * (t.val / 16), h⟩ : Fin cfg0.N)) (hs0_3 (⟨16 * (t.val / 16), h⟩ : Fin cfg0.N)) (ms0_4 (⟨16 * (t.val / 16), h⟩ : Fin cfg0.N)) (hs0_4 (⟨16 * (t.val / 16), h⟩ : Fin cfg0.N)) (ms0_5 (⟨16 * (t.val / 16), h⟩ : Fin cfg0.N)) (hs0_5 (⟨16 * (t.val / 16), h⟩ : Fin cfg0.N)) (ms0_6 (⟨16 * (t.val / 16), h⟩ : Fin cfg0.N)) (hs0_6 (⟨16 * (t.val / 16), h⟩ : Fin cfg0.N)) (ms0_7 (⟨16 * (t.val / 16), h⟩ : Fin cfg0.N)) (hs0_7 (⟨16 * (t.val / 16), h⟩ : Fin cfg0.N)) (ms0_8 (⟨16 * (t.val / 16), h⟩ : Fin cfg0.N)) (hs0_8 (⟨16 * (t.val / 16), h⟩ : Fin cfg0.N)) (ms0_9 (⟨16 * (t.val / 16), h⟩ : Fin cfg0.N)) (hs0_9 (⟨16 * (t.val / 16), h⟩ : Fin cfg0.N)) (ms0_10 (⟨16 * (t.val / 16), h⟩ : Fin cfg0.N)) (hs0_10 (⟨16 * (t.val / 16), h⟩ : Fin cfg0.N)) scM0_0 (Memref.isWhole_whole _) scM0_1 (Memref.isWhole_whole _) scM0_2 (Memref.isWhole_whole _) scM0_3 (Memref.isWhole_whole _)
      ((hcond0_0 (⟨16 * (t.val / 16), h⟩ : Fin cfg0.N)).mpr hb0) (fun hh => hb15 ((hcond0_1 (⟨16 * (t.val / 16), h⟩ : Fin cfg0.N)).mp hh))
      (iblk m c 0 (⟨16 * (t.val / 16), h⟩ : Fin cfg0.N)) (iblk m c 1 (⟨16 * (t.val / 16), h⟩ : Fin cfg0.N)) (iblk m c 2 (⟨16 * (t.val / 16), h⟩ : Fin cfg0.N)) (iblk m c 3 (⟨16 * (t.val / 16), h⟩ : Fin cfg0.N)) (iblk m c 4 (⟨16 * (t.val / 16), h⟩ : Fin cfg0.N)) (iblk m c 5 (⟨16 * (t.val / 16), h⟩ : Fin cfg0.N)) (iblk m c 6 (⟨16 * (t.val / 16), h⟩ : Fin cfg0.N)) (iblk m c 7 (⟨16 * (t.val / 16), h⟩ : Fin cfg0.N)) (iblk m c 8 (⟨16 * (t.val / 16), h⟩ : Fin cfg0.N)) (iblk m c 9 (⟨16 * (t.val / 16), h⟩ : Fin cfg0.N))) y).trans ?_
    refine (KernelPayloads.update_i_apply (iblk m c 0 (⟨16 * (t.val / 16), h⟩ : Fin cfg0.N)) k0_pay5 (iblk m c 5 (⟨16 * (t.val / 16), h⟩ : Fin cfg0.N)) y).trans ?_
    rw [KernelPayloads.zero_fill_i]
  · intro n h acc y hlo hhi
    have hn0 : ¬n % 16 = 0 := by omega
    show Value.scAt0_2 m c n h acc y = acc y + addend_i m c n y
    unfold Value.scAt0_2 addend_i
    rw [dif_neg hn0, dif_pos h]
    by_cases hn15 : n % 16 = 15
    · rw [dif_pos hn15]
      refine (congrFun (KernelPieces.last_input (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) ((hcond0_1 (⟨n, h⟩ : Fin cfg0.N)).mpr hn15)
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_i_apply (iblk m c 0 (⟨n, h⟩ : Fin cfg0.N)) acc (iblk m c 5 (⟨n, h⟩ : Fin cfg0.N)) y
    · rw [dif_neg hn15]
      refine (congrFun (KernelPieces.middle_input (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) (fun hh => hn15 ((hcond0_1 (⟨n, h⟩ : Fin cfg0.N)).mp hh))
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_i_apply (iblk m c 0 (⟨n, h⟩ : Fin cfg0.N)) acc (iblk m c 5 (⟨n, h⟩ : Fin cfg0.N)) y

/-- At a run's last point the input gate's accumulator is the body's update of what the point before left. -/
theorem last_acc_i (c : Dev nD) (t : Fin cfg0.N) (h0 : ¬t.val % 16 = 0) (h15 : t.val % 16 = 15) :
    (outsAt0 m c t.val t.isLt).2.2.2.1 = k0_pay10 (iblk m c 0 t) (outsAt0 m c (t.val - 1) (Nat.lt_of_le_of_lt (Nat.sub_le _ _) t.isLt)).2.2.2.1 (iblk m c 5 t) :=
  by
  rw [outsAt0_C m c t h0 h15]
  dsimp only
  exact KernelPieces.last_input (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (fun hh => h0 ((hcond0_0 t).mp hh)) ((hcond0_1 t).mpr h15)
    (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After a run's last point the input gate's accumulator plus its bias entry is the specification's pre-activation at
    the result index the entry is written to: the sixteen block sums regroup into the one sum over the joined row. -/
theorem pre_i (c : Dev nD) (t : Fin cfg0.N) (h15 : t.val % 16 = 15) (y : S1x1024.Idx) :
    (outsAt0 m c t.val t.isLt).2.2.2.1 y + (iblk m c 6 t : Vec Ideal S1024 .f32) (ix1 (y 1))
      = Cert.LstmSpec.pre (V m c main_v0) (V m c main_arg7) (V m c main_arg8) (ix2 (y 0) (colPos t (y 1))) := by
  have hN : t.val < 128 := lt_of_lt_of_eq t.isLt grid_size
  rw [acc_i m c t y, h15, zero_add, bias_block_i m c t (y 1)]
  unfold Cert.LstmSpec.pre
  refine congrArg₂ (· + ·) ?_ rfl
  refine Cert.LibBlockSum.sum_range_blocks_of_eq 16 1024 16384 (by decide) _ _ (fun k => ?_)
  have hlt : 16 * (t.val / 16) + k.val < cfg0.N := lt_of_lt_of_eq (by omega : 16 * (t.val / 16) + k.val < 128) grid_size.symm
  unfold addend_i
  rw [dif_pos hlt]
  unfold KernelPayloads.blockDot
  refine Finset.sum_congr rfl fun r _ => ?_
  rw [joined_block m c ⟨_, hlt⟩ (y 0) r, weight_block_i m c ⟨_, hlt⟩ r (y 1)]
  have hk : k.val * 1024 + r.val < 16384 := by omega
  have e1 : joinedPos ⟨16 * (t.val / 16) + k.val, hlt⟩ r = ⟨k.val * 1024 + r.val, hk⟩ :=
    Fin.ext (by show (16 * (t.val / 16) + k.val) % 16 * 1024 + r.val = k.val * 1024 + r.val; omega)
  have e2 : colPos ⟨16 * (t.val / 16) + k.val, hlt⟩ (y 1) = colPos t (y 1) :=
    Fin.ext (by show (16 * (t.val / 16) + k.val) / 16 * 1024 + (y 1).val = t.val / 16 * 1024 + (y 1).val; omega)
  rw [e1, e2]
  <;> rfl

/-- What point `n` adds to the output gate's accumulator: the inner product of its joined block with its weight block
    (zero past the grid, where the value is never used). -/
def addend_o (c : Dev nD) (n : ℕ) (y : S1x1024.Idx) : EReal :=
  if h : n < cfg0.N then KernelPayloads.blockDot (iblk m c 0 ⟨n, h⟩) (iblk m c 7 ⟨n, h⟩) y else 0

/-- The output gate's accumulator after point `t`: zero plus the addends of the run's points up to `t`. -/
theorem acc_o (c : Dev nD) (t : Fin cfg0.N) (y : S1x1024.Idx) :
    (outsAt0 m c t.val t.isLt).2.2.2.2 y = 0 + ∑ s ∈ Finset.range (t.val % 16 + 1), addend_o m c (16 * (t.val / 16) + s) y := by
  rw [Value.soutsAt0_3_eq m c t]
  refine Pipeline.accAt_add_apply (ι := S1x1024.Idx) (β := EReal) _ _ (fun _ => 0) (addend_o m c) (16 * (t.val / 16)) 15 ?_ ?_
    (t.val % 16) (by omega) _ y
  · intro h y
    have hb0 : 16 * (t.val / 16) % 16 = 0 := Nat.mul_mod_right 16 _
    have hb15 : ¬16 * (t.val / 16) % 16 = 15 := by omega
    show Value.scAt0_3 m c (16 * (t.val / 16)) h _ y = 0 + addend_o m c (16 * (t.val / 16)) y
    unfold Value.scAt0_3 addend_o
    rw [dif_pos hb0, dif_neg hb15, dif_pos h]
    refine (congrFun (KernelPieces.first_output (F := Ideal) c (grid0.coords (⟨16 * (t.val / 16), h⟩ : Fin cfg0.N)) (ms0_0 (⟨16 * (t.val / 16), h⟩ : Fin cfg0.N)) (hs0_0 (⟨16 * (t.val / 16), h⟩ : Fin cfg0.N)) (ms0_1 (⟨16 * (t.val / 16), h⟩ : Fin cfg0.N)) (hs0_1 (⟨16 * (t.val / 16), h⟩ : Fin cfg0.N)) (ms0_2 (⟨16 * (t.val / 16), h⟩ : Fin cfg0.N)) (hs0_2 (⟨16 * (t.val / 16), h⟩ : Fin cfg0.N)) (ms0_3 (⟨16 * (t.val / 16), h⟩ : Fin cfg0.N)) (hs0_3 (⟨16 * (t.val / 16), h⟩ : Fin cfg0.N)) (ms0_4 (⟨16 * (t.val / 16), h⟩ : Fin cfg0.N)) (hs0_4 (⟨16 * (t.val / 16), h⟩ : Fin cfg0.N)) (ms0_5 (⟨16 * (t.val / 16), h⟩ : Fin cfg0.N)) (hs0_5 (⟨16 * (t.val / 16), h⟩ : Fin cfg0.N)) (ms0_6 (⟨16 * (t.val / 16), h⟩ : Fin cfg0.N)) (hs0_6 (⟨16 * (t.val / 16), h⟩ : Fin cfg0.N)) (ms0_7 (⟨16 * (t.val / 16), h⟩ : Fin cfg0.N)) (hs0_7 (⟨16 * (t.val / 16), h⟩ : Fin cfg0.N)) (ms0_8 (⟨16 * (t.val / 16), h⟩ : Fin cfg0.N)) (hs0_8 (⟨16 * (t.val / 16), h⟩ : Fin cfg0.N)) (ms0_9 (⟨16 * (t.val / 16), h⟩ : Fin cfg0.N)) (hs0_9 (⟨16 * (t.val / 16), h⟩ : Fin cfg0.N)) (ms0_10 (⟨16 * (t.val / 16), h⟩ : Fin cfg0.N)) (hs0_10 (⟨16 * (t.val / 16), h⟩ : Fin cfg0.N)) scM0_0 (Memref.isWhole_whole _) scM0_1 (Memref.isWhole_whole _) scM0_2 (Memref.isWhole_whole _) scM0_3 (Memref.isWhole_whole _)
      ((hcond0_0 (⟨16 * (t.val / 16), h⟩ : Fin cfg0.N)).mpr hb0) (fun hh => hb15 ((hcond0_1 (⟨16 * (t.val / 16), h⟩ : Fin cfg0.N)).mp hh))
      (iblk m c 0 (⟨16 * (t.val / 16), h⟩ : Fin cfg0.N)) (iblk m c 1 (⟨16 * (t.val / 16), h⟩ : Fin cfg0.N)) (iblk m c 2 (⟨16 * (t.val / 16), h⟩ : Fin cfg0.N)) (iblk m c 3 (⟨16 * (t.val / 16), h⟩ : Fin cfg0.N)) (iblk m c 4 (⟨16 * (t.val / 16), h⟩ : Fin cfg0.N)) (iblk m c 5 (⟨16 * (t.val / 16), h⟩ : Fin cfg0.N)) (iblk m c 6 (⟨16 * (t.val / 16), h⟩ : Fin cfg0.N)) (iblk m c 7 (⟨16 * (t.val / 16), h⟩ : Fin cfg0.N)) (iblk m c 8 (⟨16 * (t.val / 16), h⟩ : Fin cfg0.N)) (iblk m c 9 (⟨16 * (t.val / 16), h⟩ : Fin cfg0.N))) y).trans ?_
    refine (KernelPayloads.update_o_apply (iblk m c 0 (⟨16 * (t.val / 16), h⟩ : Fin cfg0.N)) k0_pay6 (iblk m c 7 (⟨16 * (t.val / 16), h⟩ : Fin cfg0.N)) y).trans ?_
    rw [KernelPayloads.zero_fill_o]
  · intro n h acc y hlo hhi
    have hn0 : ¬n % 16 = 0 := by omega
    show Value.scAt0_3 m c n h acc y = acc y + addend_o m c n y
    unfold Value.scAt0_3 addend_o
    rw [dif_neg hn0, dif_pos h]
    by_cases hn15 : n % 16 = 15
    · rw [dif_pos hn15]
      refine (congrFun (KernelPieces.last_output (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) ((hcond0_1 (⟨n, h⟩ : Fin cfg0.N)).mpr hn15)
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_o_apply (iblk m c 0 (⟨n, h⟩ : Fin cfg0.N)) acc (iblk m c 7 (⟨n, h⟩ : Fin cfg0.N)) y
    · rw [dif_neg hn15]
      refine (congrFun (KernelPieces.middle_output (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) scM0_1 (Memref.isWhole_whole _) scM0_2 (Memref.isWhole_whole _) scM0_3 (Memref.isWhole_whole _)
        (fun hh => hn0 ((hcond0_0 (⟨n, h⟩ : Fin cfg0.N)).mp hh)) (fun hh => hn15 ((hcond0_1 (⟨n, h⟩ : Fin cfg0.N)).mp hh))
        (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ _) y).trans ?_
      exact KernelPayloads.update_o_apply (iblk m c 0 (⟨n, h⟩ : Fin cfg0.N)) acc (iblk m c 7 (⟨n, h⟩ : Fin cfg0.N)) y

/-- At a run's last point the output gate's accumulator is the body's update of what the point before left. -/
theorem last_acc_o (c : Dev nD) (t : Fin cfg0.N) (h0 : ¬t.val % 16 = 0) (h15 : t.val % 16 = 15) :
    (outsAt0 m c t.val t.isLt).2.2.2.2 = k0_pay1 (k0_pay7 (iblk m c 0 t)) (outsAt0 m c (t.val - 1) (Nat.lt_of_le_of_lt (Nat.sub_le _ _) t.isLt)).2.2.2.2 (iblk m c 7 t) :=
  by
  rw [outsAt0_C m c t h0 h15]
  dsimp only
  exact KernelPieces.last_output (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (fun hh => h0 ((hcond0_0 t).mp hh)) ((hcond0_1 t).mpr h15)
    (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After a run's last point the output gate's accumulator plus its bias entry is the specification's pre-activation at
    the result index the entry is written to: the sixteen block sums regroup into the one sum over the joined row. -/
theorem pre_o (c : Dev nD) (t : Fin cfg0.N) (h15 : t.val % 16 = 15) (y : S1x1024.Idx) :
    (outsAt0 m c t.val t.isLt).2.2.2.2 y + (iblk m c 8 t : Vec Ideal S1024 .f32) (ix1 (y 1))
      = Cert.LstmSpec.pre (V m c main_v0) (V m c main_arg9) (V m c main_arg10) (ix2 (y 0) (colPos t (y 1))) := by
  have hN : t.val < 128 := lt_of_lt_of_eq t.isLt grid_size
  rw [acc_o m c t y, h15, zero_add, bias_block_o m c t (y 1)]
  unfold Cert.LstmSpec.pre
  refine congrArg₂ (· + ·) ?_ rfl
  refine Cert.LibBlockSum.sum_range_blocks_of_eq 16 1024 16384 (by decide) _ _ (fun k => ?_)
  have hlt : 16 * (t.val / 16) + k.val < cfg0.N := lt_of_lt_of_eq (by omega : 16 * (t.val / 16) + k.val < 128) grid_size.symm
  unfold addend_o
  rw [dif_pos hlt]
  unfold KernelPayloads.blockDot
  refine Finset.sum_congr rfl fun r _ => ?_
  rw [joined_block m c ⟨_, hlt⟩ (y 0) r, weight_block_o m c ⟨_, hlt⟩ r (y 1)]
  have hk : k.val * 1024 + r.val < 16384 := by omega
  have e1 : joinedPos ⟨16 * (t.val / 16) + k.val, hlt⟩ r = ⟨k.val * 1024 + r.val, hk⟩ :=
    Fin.ext (by show (16 * (t.val / 16) + k.val) % 16 * 1024 + r.val = k.val * 1024 + r.val; omega)
  have e2 : colPos ⟨16 * (t.val / 16) + k.val, hlt⟩ (y 1) = colPos t (y 1) :=
    Fin.ext (by show (16 * (t.val / 16) + k.val) / 16 * 1024 + (y 1).val = t.val / 16 * 1024 + (y 1).val; omega)
  rw [e1, e2]
  <;> rfl

/-! ## The result array -/

/-- The specification's new hidden row of the arrays as the region finds them. -/
def result (c : Dev nD) : Buf (Elt Ideal) ((c : Thread nD τ).loc main_v1) :=
  Cert.LstmSpec.hidden (V m c main_v0) (V m c main_arg2) (V m c main_arg3) (V m c main_arg4) (V m c main_arg5) (V m c main_arg6)
    (V m c main_arg7) (V m c main_arg8) (V m c main_arg9) (V m c main_arg10)

/-- What a run's last point writes back is its block of that row. -/
theorem flushed_eq (c : Dev nD) (t : Fin cfg0.N) (hf : (cfg0.win 10).flush t = true) :
    (dats m 0 c).flushed 10 t = ((cfg0.win 10).blk t).view.read (Elt Ideal) (result m c) := by
  have h15 : t.val % 16 = 15 := (flush0_10 t).mp hf
  have h0 : ¬t.val % 16 = 0 := by omega
  rw [Value.flushed10_C m c t h0 h15]
  funext y
  refine (congrFun (KernelPieces.last_result (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (fun hh => h0 ((hcond0_0 t).mp hh)) ((hcond0_1 t).mpr h15)
    (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) y).trans ?_
  refine (KernelPayloads.result_block_apply
    (k0_pay8 (iblk m c 0 t) (outsAt0 m c (t.val - 1) (Nat.lt_of_le_of_lt (Nat.sub_le _ _) t.isLt)).2.1 (iblk m c 1 t))
    (k0_pay9 (iblk m c 0 t) (outsAt0 m c (t.val - 1) (Nat.lt_of_le_of_lt (Nat.sub_le _ _) t.isLt)).2.2.1 (iblk m c 3 t))
    (k0_pay10 (iblk m c 0 t) (outsAt0 m c (t.val - 1) (Nat.lt_of_le_of_lt (Nat.sub_le _ _) t.isLt)).2.2.2.1 (iblk m c 5 t))
    (k0_pay1 (k0_pay7 (iblk m c 0 t)) (outsAt0 m c (t.val - 1) (Nat.lt_of_le_of_lt (Nat.sub_le _ _) t.isLt)).2.2.2.2 (iblk m c 7 t))
    (iblk m c 9 t) (iblk m c 2 t) (iblk m c 4 t) (iblk m c 6 t) (iblk m c 8 t) y).trans ?_
  rw [← last_acc_c m c t h0 h15, ← last_acc_f m c t h0 h15, ← last_acc_i m c t h0 h15, ← last_acc_o m c t h0 h15,
    pre_c m c t h15 y, pre_f m c t h15 y, pre_i m c t h15 y, pre_o m c t h15 y, cell_block m c t y,
    View.read_apply, result_emb t y]
  rfl

/-- An index of the result row is in point `t`'s block iff each coordinate is in the block's range on its axis. -/
theorem mem_result_blk (t : Fin cfg0.N) (i : S1x8192.Idx) :
    i ∈ ((cfg0.win 10).blk t).view.set ↔ ∀ a : Fin 2, win0_10.index t a * S1x1024.size a ≤ (i a).val ∧ (i a).val < win0_10.index t a * S1x1024.size a + S1x1024.size a := by
  show i ∈ ((View.whole main_v1).slice (win0_10.rect t)).set ↔ _
  rw [View.set_slice_whole, Rect.mem_set_unit]
  exact Iff.rfl

/-- Every index of the result row is in the block some run's last point writes back: column `q` is in column block
    `q / 1024`, whose run ends at point `16 · (q / 1024) + 15`. -/
theorem covered (i : S1x8192.Idx) : ∃ t : Fin cfg0.N, (cfg0.win 10).flush t = true ∧ i ∈ ((cfg0.win 10).blk t).view.set := by
  have hi0 : (i 0).val < 1 := (i 0).isLt
  have hi1 : (i 1).val < 8192 := (i 1).isLt
  have hlt : 16 * ((i 1).val / 1024) + 15 < cfg0.N := by rw [grid_size]; omega
  refine ⟨⟨16 * ((i 1).val / 1024) + 15, hlt⟩, (flush0_10 _).mpr (by show (16 * ((i 1).val / 1024) + 15) % 16 = 15; omega), ?_⟩
  rw [mem_result_blk]
  obtain ⟨e0, e1⟩ := result_block_ix ⟨16 * ((i 1).val / 1024) + 15, hlt⟩
  intro a
  match a with
  | ⟨0, _⟩ =>
    show win0_10.index ⟨16 * ((i 1).val / 1024) + 15, hlt⟩ (0 : Fin 2) * 1 ≤ (i 0).val
      ∧ (i 0).val < win0_10.index ⟨16 * ((i 1).val / 1024) + 15, hlt⟩ (0 : Fin 2) * 1 + 1
    rw [e0]; omega
  | ⟨1, _⟩ =>
    show win0_10.index ⟨16 * ((i 1).val / 1024) + 15, hlt⟩ (1 : Fin 2) * 1024 ≤ (i 1).val
      ∧ (i 1).val < win0_10.index ⟨16 * ((i 1).val / 1024) + 15, hlt⟩ (1 : Fin 2) * 1024 + 1024
    rw [e1]
    show (16 * ((i 1).val / 1024) + 15) / 16 * 1024 ≤ (i 1).val ∧ (i 1).val < (16 * ((i 1).val / 1024) + 15) / 16 * 1024 + 1024
    omega

/-- So after the run the result array is the specification's new hidden row. -/
theorem final (c : Dev nD) : (dats m 0 c).arrAt 10 cfg0.N = result m c :=
  (dats m 0 c).arrAt_eq_of_cover 10 (result m c) (flushed_eq m c) covered

/-- The joined row as the region finds it is the two argument rows joined, the previous hidden row first. -/
theorem joined_eq (c : Dev nD) :
    (V m c main_v0 : S1x16384.Idx → EReal)
      = concatenate S1x16384 1 [⟨S1x8192, m ((c : Thread nD τ).loc main_arg1)⟩, ⟨S1x8192, m ((c : Thread nD τ).loc main_arg0)⟩]
          concatenates_S1x8192_S1x8192_S1x16384_d1 := by
  dsimp only [V, hostOps0]
  after_results

/-- The result row in terms of the argument arrays at launch. -/
theorem result_eq (c : Dev nD) : result m c
    = Cert.LstmSpec.hidden
        (concatenate S1x16384 1 [⟨S1x8192, m ((c : Thread nD τ).loc main_arg1)⟩, ⟨S1x8192, m ((c : Thread nD τ).loc main_arg0)⟩]
          concatenates_S1x8192_S1x8192_S1x16384_d1)
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  unfold result
  rw [joined_eq m c, V_main_arg2 m c, V_main_arg3 m c, V_main_arg4 m c, V_main_arg5 m c, V_main_arg6 m c, V_main_arg7 m c,
    V_main_arg8 m c, V_main_arg9 m c, V_main_arg10 m c]

/-- The kernel's run, read: the result array at the specification's new hidden row, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelValue

end
-- ==== Proof.RefIsSpec.lean ====
/-
  The reference's result, read one operation at a time, is the specification's new hidden row.

  The reference joins the previous hidden row and the input row, multiplies the joined row by each gate's matrix with
  one whole matrix product, adds the gate's bias spread along the row, applies tanh to the candidate and
  1 / (1 + exp (-·)) to the three other gates, and combines. At an output index the matrix product is the sum over the
  16384 joined entries of joined entry times weight, which is the specification's inner product; the constant the
  reference divides into and adds to is the extended real one; and 1 / (1 + e⁻ˣ), written with the host's negate,
  exponential, add and divide, is the logistic function by its definition on the extended reals. So the two are the same
  function of the arrays, index by index.
-/
import proofs.«103221_j54288386622134_1_alg».proof.Proof.Gen.ReferenceIdeal.Read
import proofs.«103221_j54288386622134_1_alg».proof.Proof.LstmSpec
import Idealize.ShloMosaic.Lib.IdealHost

noncomputable section

namespace Cert.RefIsSpec

open Cert.ReferenceIdeal Cert.ReferenceIdeal.Gen Idealize.ShloMosaic Idealize.ShloMosaic.ValueIdx
open Cert.ReferenceIdeal (S1x8192 S1x16384 S16384x8192 S8192)

/-! Where each gate's matrix product and bias read their operands at output index `i` and contracted position `k`:
    the joined row at (row `i 0`, entry `k`), the weights at (row `k`, column `i 1`), the bias at entry `i 1`. -/

theorem joined_ix_v1 (i : S1x8192.Idx) (k : Fin 16384) : Read.lidx_main_v1 i k = ix2 (i 0) k :=
  funext fun a => Fin.ext (by match a with | ⟨0, _⟩ => rfl | ⟨1, _⟩ => rfl)
theorem weight_ix_v1 (i : S1x8192.Idx) (k : Fin 16384) : Read.ridx_main_v1 i k = ix2 k (i 1) :=
  funext fun a => Fin.ext (by match a with | ⟨0, _⟩ => rfl | ⟨1, _⟩ => rfl)
theorem joined_ix_v5 (i : S1x8192.Idx) (k : Fin 16384) : Read.lidx_main_v5 i k = ix2 (i 0) k :=
  funext fun a => Fin.ext (by match a with | ⟨0, _⟩ => rfl | ⟨1, _⟩ => rfl)
theorem weight_ix_v5 (i : S1x8192.Idx) (k : Fin 16384) : Read.ridx_main_v5 i k = ix2 k (i 1) :=
  funext fun a => Fin.ext (by match a with | ⟨0, _⟩ => rfl | ⟨1, _⟩ => rfl)
theorem joined_ix_v14 (i : S1x8192.Idx) (k : Fin 16384) : Read.lidx_main_v14 i k = ix2 (i 0) k :=
  funext fun a => Fin.ext (by match a with | ⟨0, _⟩ => rfl | ⟨1, _⟩ => rfl)
theorem weight_ix_v14 (i : S1x8192.Idx) (k : Fin 16384) : Read.ridx_main_v14 i k = ix2 k (i 1) :=
  funext fun a => Fin.ext (by match a with | ⟨0, _⟩ => rfl | ⟨1, _⟩ => rfl)
theorem joined_ix_v23 (i : S1x8192.Idx) (k : Fin 16384) : Read.lidx_main_v23 i k = ix2 (i 0) k :=
  funext fun a => Fin.ext (by match a with | ⟨0, _⟩ => rfl | ⟨1, _⟩ => rfl)
theorem weight_ix_v23 (i : S1x8192.Idx) (k : Fin 16384) : Read.ridx_main_v23 i k = ix2 k (i 1) :=
  funext fun a => Fin.ext (by match a with | ⟨0, _⟩ => rfl | ⟨1, _⟩ => rfl)
theorem bias_ix_v2 (i : S1x8192.Idx) : Read.idx_main_v2 i = ix1 (i 1) :=
  funext fun a => Fin.ext (by match a with | ⟨0, _⟩ => rfl)
theorem bias_ix_v6 (i : S1x8192.Idx) : Read.idx_main_v6 i = ix1 (i 1) :=
  funext fun a => Fin.ext (by match a with | ⟨0, _⟩ => rfl)
theorem bias_ix_v15 (i : S1x8192.Idx) : Read.idx_main_v15 i = ix1 (i 1) :=
  funext fun a => Fin.ext (by match a with | ⟨0, _⟩ => rfl)
theorem bias_ix_v24 (i : S1x8192.Idx) : Read.idx_main_v24 i = ix1 (i 1) :=
  funext fun a => Fin.ext (by match a with | ⟨0, _⟩ => rfl)

/-- A gate's "inner product plus bias", with the operands read where the reference reads them, is the specification's
    pre-activation. -/
theorem pre_eq (cc : FVec Ideal S1x16384 .f32) (W : FVec Ideal S16384x8192 .f32) (b : FVec Ideal S8192 .f32) (i : S1x8192.Idx)
    (l : Fin 16384 → S1x16384.Idx) (r : Fin 16384 → S16384x8192.Idx) (bi : S8192.Idx)
    (hl : ∀ k, l k = ix2 (i 0) k) (hr : ∀ k, r k = ix2 k (i 1)) (hb : bi = ix1 (i 1)) :
    (∑ k : Fin 16384, cc (l k) * W (r k)) + b bi = Cert.LstmSpec.pre cc W b i := by
  subst hb
  unfold Cert.LstmSpec.pre
  exact congrArg (· + b (ix1 (i 1))) (Finset.sum_congr rfl fun k _ => by rw [hl k, hr k] <;> rfl)

/-- The reference's last stage is the specification's new hidden row of the joined row (the reference's own first
    stage), the previous cell row and the gates' weights and biases. -/
theorem reference_eq (x0 x1 x2 : FVec Ideal S1x8192 .f32)
    (x3 : FVec Ideal S16384x8192 .f32) (x4 : FVec Ideal S8192 .f32) (x5 : FVec Ideal S16384x8192 .f32) (x6 : FVec Ideal S8192 .f32)
    (x7 : FVec Ideal S16384x8192 .f32) (x8 : FVec Ideal S8192 .f32) (x9 : FVec Ideal S16384x8192 .f32) (x10 : FVec Ideal S8192 .f32) :
    Read.val_main_v36 (F := Ideal) x0 x1 x2 x3 x4 x5 x6 x7 x8 x9 x10
      = Cert.LstmSpec.hidden (Read.val_main_v0 (F := Ideal) x0 x1) x2 x3 x4 x5 x6 x7 x8 x9 x10 := by
  funext i
  simp only [Read.val_main_v36_apply, Read.val_main_v35_apply, Read.val_main_v34_apply, Read.val_main_v33_apply, Read.val_main_v32_apply, Read.val_main_v31_apply, Read.val_main_v30_apply, Read.val_main_v29_apply, Read.val_main_v28_apply, Read.val_main_v27_apply, Read.val_main_v26_apply, Read.val_main_v25_apply, Read.val_main_v24_apply, Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_v5_apply, Read.val_main_v4_apply, Read.val_main_v3_apply, Read.val_main_v2_apply, Read.val_main_v1_apply, Read.val_main_cst_4_apply, Read.val_main_cst_3_apply, Read.val_main_cst_2_apply, Read.val_main_cst_1_apply, Read.val_main_cst_0_apply, Read.val_main_cst_apply]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  rw [pre_eq _ x9 x10 i _ _ _ (joined_ix_v23 i) (weight_ix_v23 i) (bias_ix_v24 i),
    pre_eq _ x5 x6 i _ _ _ (joined_ix_v5 i) (weight_ix_v5 i) (bias_ix_v6 i),
    pre_eq _ x3 x4 i _ _ _ (joined_ix_v1 i) (weight_ix_v1 i) (bias_ix_v2 i),
    pre_eq _ x7 x8 i _ _ _ (joined_ix_v14 i) (weight_ix_v14 i) (bias_ix_v15 i)]
  rfl

end Cert.RefIsSpec

end
-- ==== Proof.lean ====
/-
  One step of a recurrent cell with four gates, as a blocked kernel and as a plain reference, are the same function over
  the extended reals.

  Both join the previous hidden row `h` and the input row `x` into one row of 16384 entries, form for each of the four
  gates the product of that row with the gate's 16384 × 8192 matrix plus the gate's bias, pass the candidate through
  tanh and the forget, input and output gates through the logistic function, and return
  σ(o) · tanh (c · σ(f) + tanh(g) · σ(i)) for the previous cell row `c`.

  The reference forms each product as one sum over the 16384 joined entries. The kernel walks a grid of 8 column
  blocks by 16 blocks of the joined row, keeps one accumulator row per gate, resets it at the first point of a column
  block's run, adds one 1024-term block sum per point, and at the run's last point adds the biases, applies the
  activations, combines, and writes the column block of the result back. Two facts join the two sides:
    • a sum over 16 · 1024 consecutive entries is the sum of its 16 consecutive block sums, added onto zero one after
      the other — commutativity and associativity of addition on the extended reals, so no input needs to be finite;
    • the kernel's logistic operation is, on every extended real, the reference's 1 / (1 + exp (-x)), with the constant
      the reference writes denoting the extended real one.
  The kernel's idealization rewrote nothing, so that conjunct is trivial. The three frame conjuncts are the generated
  frames of the two kernel programs and the reference's generated run with its result dropped.
-/
import proofs.«103221_j54288386622134_1_alg».proof.Defs
import proofs.«103221_j54288386622134_1_alg».proof.Proof.Gen.Kernel
import proofs.«103221_j54288386622134_1_alg».proof.Proof.Gen.Kernel.Skeleton
import proofs.«103221_j54288386622134_1_alg».proof.Proof.Gen.Kernel.Launch
import proofs.«103221_j54288386622134_1_alg».proof.Proof.Gen.Kernel.Points
import proofs.«103221_j54288386622134_1_alg».proof.Proof.Gen.Kernel.Frame
import proofs.«103221_j54288386622134_1_alg».proof.Proof.Gen.KernelIdeal
import proofs.«103221_j54288386622134_1_alg».proof.Proof.Gen.KernelIdeal.Skeleton
import proofs.«103221_j54288386622134_1_alg».proof.Proof.Gen.KernelIdeal.Launch
import proofs.«103221_j54288386622134_1_alg».proof.Proof.Gen.KernelIdeal.Points
import proofs.«103221_j54288386622134_1_alg».proof.Proof.Gen.KernelIdeal.Frame
import proofs.«103221_j54288386622134_1_alg».proof.Proof.Gen.ReferenceIdeal
import proofs.«103221_j54288386622134_1_alg».proof.Proof.Gen.Pre_finite_inputs
import proofs.«103221_j54288386622134_1_alg».proof.Proof.Gen.KernelIdeal.Value
import proofs.«103221_j54288386622134_1_alg».proof.Proof.Gen.ReferenceIdeal.Run
import proofs.«103221_j54288386622134_1_alg».proof.Proof.Gen.ReferenceIdeal.Read
import proofs.«103221_j54288386622134_1_alg».proof.Proof.KernelValue
import proofs.«103221_j54288386622134_1_alg».proof.Proof.RefIsSpec
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the eleven arguments, the idealized kernel and the idealized reference both end with
    the result at the specification's new hidden row of those arguments: the kernel by its accumulators' closed form
    and the cover of the result row by the blocks written back, the reference operation by operation. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelValue.result m c
  obtain ⟨a0, a1, a2, a3, a4, a5, a6, a7, a8, a9, a10⟩ := hagree c
  rw [Cert.ReferenceIdeal.Read.val_main_v36_eq, Cert.RefIsSpec.reference_eq, Cert.KernelValue.result_eq,
    a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
